-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x197x768 : Shape := ⟨3, ![64, 197, 768]⟩
abbrev S2304x768 : Shape := ⟨2, ![2304, 768]⟩
abbrev S2304 : Shape := ⟨1, ![2304]⟩
abbrev S16x768 : Shape := ⟨2, ![16, 768]⟩
abbrev S768x16 : Shape := ⟨2, ![768, 16]⟩
abbrev S_ : Shape := ⟨0, ![]⟩

class Facts : Prop where
  bcast_S_S64x197x768 : S_.BroadcastsInDim S64x197x768 (![] : Fin 0 → Fin S64x197x768.rank)
  reducesTo_S64x197x768_S_d0_1_2 : S64x197x768.ReducesTo [0, 1, 2] S_
  h_S_ : 0 < S_.numel
  bcast_S_S2304x768 : S_.BroadcastsInDim S2304x768 (![] : Fin 0 → Fin S2304x768.rank)
  reducesTo_S2304x768_S_d0_1 : S2304x768.ReducesTo [0, 1] S_
  bcast_S_S2304 : S_.BroadcastsInDim S2304 (![] : Fin 0 → Fin S2304.rank)
  reducesTo_S2304_S_d0 : S2304.ReducesTo [0] S_
  bcast_S_S16x768 : S_.BroadcastsInDim S16x768 (![] : Fin 0 → Fin S16x768.rank)
  reducesTo_S16x768_S_d0_1 : S16x768.ReducesTo [0, 1] S_
  bcast_S_S768x16 : S_.BroadcastsInDim S768x16 (![] : Fin 0 → Fin S768x16.rank)
  reducesTo_S768x16_S_d0_1 : S768x16.ReducesTo [0, 1] S_

variable [Facts]

def fn_part2 {F : FTy → Type} [FloatOps F] (main_arg7 : FVec F S16x768 .f32) (main_arg8 : FVec F S768x16 .f32) (main_v33 : IVec S_ 1) : IVec S_ 1 :=
  let main_v34 : FVec F S16x768 .f32 := Host.absf main_arg7
  let main_cst_12 : FVec F S_ .f32 := constant S_ .f32 0x7F800000#32
  let main_v35 : FVec F S16x768 .f32 := broadcastInDim S16x768 ![] bcast_S_S16x768 main_cst_12
  let main_v36 : IVec S16x768 1 := cmpf .olt main_v34 main_v35
  let main_c_13 : IVec S_ 1 := constantI S_ 1 1#1
  let main_v37 : IVec S_ 1 := (fun x v => Host.reduce IntOp.andi x v reducesTo_S16x768_S_d0_1 h_S_) main_v36 main_c_13
  let main_v38 : IVec S_ 1 := andi main_v33 main_v37
  let main_v39 : FVec F S768x16 .f32 := Host.absf main_arg8
  let main_cst_14 : FVec F S_ .f32 := constant S_ .f32 0x7F800000#32
  let main_v40 : FVec F S768x16 .f32 := broadcastInDim S768x16 ![] bcast_S_S768x16 main_cst_14
  let main_v41 : IVec S768x16 1 := cmpf .olt main_v39 main_v40
  let main_c_15 : IVec S_ 1 := constantI S_ 1 1#1
  let main_v42 : IVec S_ 1 := (fun x v => Host.reduce IntOp.andi x v reducesTo_S768x16_S_d0_1 h_S_) main_v41 main_c_15
  let main_v43 : IVec S_ 1 := andi main_v38 main_v42
  main_v43

def fn_part1 {F : FTy → Type} [FloatOps F] (main_arg4 : FVec F S768x16 .f32) (main_arg5 : FVec F S16x768 .f32) (main_arg6 : FVec F S768x16 .f32) (main_arg7 : FVec F S16x768 .f32) (main_arg8 : FVec F S768x16 .f32) (main_v13 : IVec S_ 1) (main_v16 : IVec S16x768 1) : IVec S_ 1 :=
  let main_c_5 : IVec S_ 1 := constantI S_ 1 1#1
  let main_v17 : IVec S_ 1 := (fun x v => Host.reduce IntOp.andi x v reducesTo_S16x768_S_d0_1 h_S_) main_v16 main_c_5
  let main_v18 : IVec S_ 1 := andi main_v13 main_v17
  let main_v19 : FVec F S768x16 .f32 := Host.absf main_arg4
  let main_cst_6 : FVec F S_ .f32 := constant S_ .f32 0x7F800000#32
  let main_v20 : FVec F S768x16 .f32 := broadcastInDim S768x16 ![] bcast_S_S768x16 main_cst_6
  let main_v21 : IVec S768x16 1 := cmpf .olt main_v19 main_v20
  let main_c_7 : IVec S_ 1 := constantI S_ 1 1#1
  let main_v22 : IVec S_ 1 := (fun x v => Host.reduce IntOp.andi x v reducesTo_S768x16_S_d0_1 h_S_) main_v21 main_c_7
  let main_v23 : IVec S_ 1 := andi main_v18 main_v22
  let main_v24 : FVec F S16x768 .f32 := Host.absf main_arg5
  let main_cst_8 : FVec F S_ .f32 := constant S_ .f32 0x7F800000#32
  let main_v25 : FVec F S16x768 .f32 := broadcastInDim S16x768 ![] bcast_S_S16x768 main_cst_8
  let main_v26 : IVec S16x768 1 := cmpf .olt main_v24 main_v25
  let main_c_9 : IVec S_ 1 := constantI S_ 1 1#1
  let main_v27 : IVec S_ 1 := (fun x v => Host.reduce IntOp.andi x v reducesTo_S16x768_S_d0_1 h_S_) main_v26 main_c_9
  let main_v28 : IVec S_ 1 := andi main_v23 main_v27
  let main_v29 : FVec F S768x16 .f32 := Host.absf main_arg6
  let main_cst_10 : FVec F S_ .f32 := constant S_ .f32 0x7F800000#32
  let main_v30 : FVec F S768x16 .f32 := broadcastInDim S768x16 ![] bcast_S_S768x16 main_cst_10
  let main_v31 : IVec S768x16 1 := cmpf .olt main_v29 main_v30
  let main_c_11 : IVec S_ 1 := constantI S_ 1 1#1
  let main_v32 : IVec S_ 1 := (fun x v => Host.reduce IntOp.andi x v reducesTo_S768x16_S_d0_1 h_S_) main_v31 main_c_11
  let main_v33 : IVec S_ 1 := andi main_v28 main_v32
  fn_part2 (F := F) main_arg7 main_arg8 main_v33

def fn {F : FTy → Type} [FloatOps F] (main_arg0 : FVec F S64x197x768 .f32) (main_arg1 : FVec F S2304x768 .f32) (main_arg2 : FVec F S2304 .f32) (main_arg3 : FVec F S16x768 .f32) (main_arg4 : FVec F S768x16 .f32) (main_arg5 : FVec F S16x768 .f32) (main_arg6 : FVec F S768x16 .f32) (main_arg7 : FVec F S16x768 .f32) (main_arg8 : FVec F S768x16 .f32) : IVec S_ 1 :=
  let main_v0 : FVec F S64x197x768 .f32 := Host.absf main_arg0
  let main_cst : FVec F S_ .f32 := constant S_ .f32 0x7F800000#32
  let main_v1 : FVec F S64x197x768 .f32 := broadcastInDim S64x197x768 ![] bcast_S_S64x197x768 main_cst
  let main_v2 : IVec S64x197x768 1 := cmpf .olt main_v0 main_v1
  let main_c : IVec S_ 1 := constantI S_ 1 1#1
  let main_v3 : IVec S_ 1 := (fun x v => Host.reduce IntOp.andi x v reducesTo_S64x197x768_S_d0_1_2 h_S_) main_v2 main_c
  let main_v4 : FVec F S2304x768 .f32 := Host.absf main_arg1
  let main_cst_0 : FVec F S_ .f32 := constant S_ .f32 0x7F800000#32
  let main_v5 : FVec F S2304x768 .f32 := broadcastInDim S2304x768 ![] bcast_S_S2304x768 main_cst_0
  let main_v6 : IVec S2304x768 1 := cmpf .olt main_v4 main_v5
  let main_c_1 : IVec S_ 1 := constantI S_ 1 1#1
  let main_v7 : IVec S_ 1 := (fun x v => Host.reduce IntOp.andi x v reducesTo_S2304x768_S_d0_1 h_S_) main_v6 main_c_1
  let main_v8 : IVec S_ 1 := andi main_v3 main_v7
  let main_v9 : FVec F S2304 .f32 := Host.absf main_arg2
  let main_cst_2 : FVec F S_ .f32 := constant S_ .f32 0x7F800000#32
  let main_v10 : FVec F S2304 .f32 := broadcastInDim S2304 ![] bcast_S_S2304 main_cst_2
  let main_v11 : IVec S2304 1 := cmpf .olt main_v9 main_v10
  let main_c_3 : IVec S_ 1 := constantI S_ 1 1#1
  let main_v12 : IVec S_ 1 := (fun x v => Host.reduce IntOp.andi x v reducesTo_S2304_S_d0 h_S_) main_v11 main_c_3
  let main_v13 : IVec S_ 1 := andi main_v8 main_v12
  let main_v14 : FVec F S16x768 .f32 := Host.absf main_arg3
  let main_cst_4 : FVec F S_ .f32 := constant S_ .f32 0x7F800000#32
  let main_v15 : FVec F S16x768 .f32 := broadcastInDim S16x768 ![] bcast_S_S16x768 main_cst_4
  let main_v16 : IVec S16x768 1 := cmpf .olt main_v14 main_v15
  fn_part1 (F := F) main_arg4 main_arg5 main_arg6 main_arg7 main_arg8 main_v13 main_v16
-- ==== Kernel.lean ====
abbrev S64x197x768 : Shape := ⟨3, ![64, 197, 768]⟩
abbrev S2304x768 : Shape := ⟨2, ![2304, 768]⟩
abbrev S2304 : Shape := ⟨1, ![2304]⟩
abbrev S16x768 : Shape := ⟨2, ![16, 768]⟩
abbrev S768x16 : Shape := ⟨2, ![768, 16]⟩
abbrev S12608x768 : Shape := ⟨2, ![12608, 768]⟩
abbrev S_ : Shape := ⟨0, ![]⟩
abbrev S12800x768 : Shape := ⟨2, ![12800, 768]⟩
abbrev S768x2304 : Shape := ⟨2, ![768, 2304]⟩
abbrev S1x2304 : Shape := ⟨2, ![1, 2304]⟩
abbrev S768x48 : Shape := ⟨2, ![768, 48]⟩
abbrev S16x2304 : Shape := ⟨2, ![16, 2304]⟩
abbrev S48x2304 : Shape := ⟨2, ![48, 2304]⟩
abbrev S12800x2304 : Shape := ⟨2, ![12800, 2304]⟩
abbrev S512x768 : Shape := ⟨2, ![512, 768]⟩
abbrev S512x2304 : Shape := ⟨2, ![512, 2304]⟩
abbrev S12608x2304 : Shape := ⟨2, ![12608, 2304]⟩
abbrev S64x197x2304 : Shape := ⟨3, ![64, 197, 2304]⟩

abbrev nBuf : Space → Nat
  | .hbm => 34
  | .vmem => 6
  | .smem => 0
  | _ => 0

abbrev bufTy : (tb : Table) → Fin (tcTables nBuf tb) → BufTy
  | .hbm, ⟨0, _⟩ => ⟨S64x197x768, .f32⟩
  | .hbm, ⟨1, _⟩ => ⟨S2304x768, .f32⟩
  | .hbm, ⟨2, _⟩ => ⟨S2304, .f32⟩
  | .hbm, ⟨3, _⟩ => ⟨S16x768, .f32⟩
  | .hbm, ⟨4, _⟩ => ⟨S768x16, .f32⟩
  | .hbm, ⟨5, _⟩ => ⟨S16x768, .f32⟩
  | .hbm, ⟨6, _⟩ => ⟨S768x16, .f32⟩
  | .hbm, ⟨7, _⟩ => ⟨S16x768, .f32⟩
  | .hbm, ⟨8, _⟩ => ⟨S768x16, .f32⟩
  | .hbm, ⟨9, _⟩ => ⟨S12608x768, .f32⟩
  | .hbm, ⟨10, _⟩ => ⟨S_, .i32⟩
  | .hbm, ⟨11, _⟩ => ⟨S_, .f32⟩
  | .hbm, ⟨12, _⟩ => ⟨S12800x768, .f32⟩
  | .hbm, ⟨13, _⟩ => ⟨S768x2304, .f32⟩
  | .hbm, ⟨14, _⟩ => ⟨S1x2304, .f32⟩
  | .hbm, ⟨15, _⟩ => ⟨S768x16, .f32⟩
  | .hbm, ⟨16, _⟩ => ⟨S768x16, .f32⟩
  | .hbm, ⟨17, _⟩ => ⟨S768x16, .f32⟩
  | .hbm, ⟨18, _⟩ => ⟨S768x48, .f32⟩
  | .hbm, ⟨19, _⟩ => ⟨S_, .f32⟩
  | .hbm, ⟨20, _⟩ => ⟨S16x768, .f32⟩
  | .hbm, ⟨21, _⟩ => ⟨S16x768, .f32⟩
  | .hbm, ⟨22, _⟩ => ⟨S16x2304, .f32⟩
  | .hbm, ⟨23, _⟩ => ⟨S16x768, .f32⟩
  | .hbm, ⟨24, _⟩ => ⟨S16x2304, .f32⟩
  | .hbm, ⟨25, _⟩ => ⟨S16x768, .f32⟩
  | .hbm, ⟨26, _⟩ => ⟨S16x2304, .f32⟩
  | .hbm, ⟨27, _⟩ => ⟨S48x2304, .f32⟩
  | .hbm, ⟨28, _⟩ => ⟨S768x2304, .f32⟩
  | .hbm, ⟨29, _⟩ => ⟨S768x2304, .f32⟩
  | .hbm, ⟨30, _⟩ => ⟨S768x2304, .bf16⟩
  | .hbm, ⟨31, _⟩ => ⟨S12800x2304, .f32⟩
  | .hbm, ⟨32, _⟩ => ⟨S12608x2304, .f32⟩
  | .hbm, ⟨33, _⟩ => ⟨S64x197x2304, .f32⟩
  | .local _ .vmem, ⟨0, _⟩ => ⟨S512x768, .f32⟩
  | .local _ .vmem, ⟨1, _⟩ => ⟨S512x768, .f32⟩
  | .local _ .vmem, ⟨2, _⟩ => ⟨S768x2304, .bf16⟩
  | .local _ .vmem, ⟨3, _⟩ => ⟨S1x2304, .f32⟩
  | .local _ .vmem, ⟨4, _⟩ => ⟨S512x2304, .f32⟩
  | .local _ .vmem, ⟨5, _⟩ => ⟨S512x2304, .f32⟩
  | _, _ => ⟨S64x197x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2304 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S64x197x768_S12608x768 : S64x197x768.ShapeCasts S12608x768
  pads_S12608x768_S12800x768_01920_000 : S12608x768.Pads (![0, 0] : Fin 2 → Nat) ![192, 0] ![0, 0] S12800x768
  h_S_ : 0 < S_.numel
  transposes_S2304x768_S768x2304_1_0 : S2304x768.Transposes [1, 0] S768x2304
  shapeCasts_S2304_S1x2304 : S2304.ShapeCasts S1x2304
  transposes_S16x768_S768x16_1_0 : S16x768.Transposes [1, 0] S768x16
  concatenates_S768x16_S768x16_S768x16_S768x48_d1 : Shape.Concatenates [S768x16, S768x16, S768x16] S768x48 1
  bcast_S_S16x768 : S_.BroadcastsInDim S16x768 (![] : Fin 0 → Fin S16x768.rank)
  transposes_S768x16_S16x768_1_0 : S768x16.Transposes [1, 0] S16x768
  concatenates_S16x768_S16x768_S16x768_S16x2304_d1 : Shape.Concatenates [S16x768, S16x768, S16x768] S16x2304 1
  concatenates_S16x2304_S16x2304_S16x2304_S48x2304_d0 : Shape.Concatenates [S16x2304, S16x2304, S16x2304] S48x2304 0
  bitsLt_bf16_f32 : FTy.bits .bf16 < FTy.bits .f32
  inb_S512x768_S512x768_0_0 : ∀ a, (![0, 0] : Fin 2 → Nat) a + S512x768.size a ≤ S512x768.size a
  h_S512x768 : 0 < S512x768.numel
  shapeCasts_S512x768_S512x768 : S512x768.ShapeCasts S512x768
  inb_S768x2304_S768x2304_0_0 : ∀ a, (![0, 0] : Fin 2 → Nat) a + S768x2304.size a ≤ S768x2304.size a
  h_S768x2304 : 0 < S768x2304.numel
  shapeCasts_S768x2304_S768x2304 : S768x2304.ShapeCasts S768x2304
  inb_S1x2304_S1x2304_0_0 : ∀ a, (![0, 0] : Fin 2 → Nat) a + S1x2304.size a ≤ S1x2304.size a
  h_S1x2304 : 0 < S1x2304.numel
  shapeCasts_S1x2304_S1x2304 : S1x2304.ShapeCasts S1x2304
  broadcasts_S1x2304_S512x2304 : S1x2304.Broadcasts S512x2304
  inb_S512x2304_S512x2304_0_0 : ∀ a, (![0, 0] : Fin 2 → Nat) a + S512x2304.size a ≤ S512x2304.size a
  h_S512x2304 : 0 < S512x2304.numel
  slices_S12800x2304_S12608x2304_0_0 : S12800x2304.Slices ![0, 0] S12608x2304
  shapeCasts_S12608x2304_S64x197x2304 : S12608x2304.ShapeCasts S64x197x2304
  dot_S768x48_S48x2304_S768x2304_1_0_0_1_n_n_wf : DotDims.WF S768x48 S48x2304 S768x2304 [1] [0] [0] [1] [] []
  dot_S512x768_S768x2304_S512x2304_1_0_0_1_n_n_wf : DotDims.WF S512x768 S768x2304 S512x2304 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x768.size a ≤ S12800x768.size a
  hwx0_0 : ∀ i : grid0.Coords, EltTy.bits .f32 = 32 ∨ (Rect.block (s := S12800x768) S512x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x2304.size a ≤ S768x2304.size a
  hwx0_1 : ∀ i : grid0.Coords, EltTy.bits .bf16 = 32 ∨ (Rect.block (s := S768x2304) S768x2304.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2304.size a ≤ S1x2304.size a
  hwx0_2 : ∀ i : grid0.Coords, EltTy.bits .f32 = 32 ∨ (Rect.block (s := S1x2304) S1x2304.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2304.size a ≤ S12800x2304.size a
  hwx0_3 : ∀ i : grid0.Coords, EltTy.bits .f32 = 32 ∨ (Rect.block (s := S12800x2304) S512x2304.size (cc0_transform_3 i) (hinb0_3 i)).WholeWords (EltTy.packing .f32)

variable [Facts₀]

def dot_S768x48_S48x2304_S768x2304_1_0_0_1_n_n : DotDims S768x48 S48x2304 S768x2304 where
  lhsContracting := [1]
  rhsContracting := [0]
  lhsNonContracting := [0]
  rhsNonContracting := [1]
  lhsBatch := []
  rhsBatch := []
  wf := dot_S768x48_S48x2304_S768x2304_1_0_0_1_n_n_wf
def dot_S512x768_S768x2304_S512x2304_1_0_0_1_n_n : DotDims S512x768 S768x2304 S512x2304 where
  lhsContracting := [1]
  rhsContracting := [0]
  lhsNonContracting := [0]
  rhsNonContracting := [1]
  lhsBatch := []
  rhsBatch := []
  wf := dot_S512x768_S768x2304_S512x2304_1_0_0_1_n_n_wf

abbrev win0_0 : Pipeline.Window sig grid0 :=
  Pipeline.Window.ofSpec (Memref.whole main_v1) S512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S768x2304.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x2304.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S512x2304.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x197x768 : Shape := ⟨3, ![64, 197, 768]⟩
abbrev S2304x768 : Shape := ⟨2, ![2304, 768]⟩
abbrev S2304 : Shape := ⟨1, ![2304]⟩
abbrev S16x768 : Shape := ⟨2, ![16, 768]⟩
abbrev S768x16 : Shape := ⟨2, ![768, 16]⟩
abbrev S64x197x2304 : Shape := ⟨3, ![64, 197, 2304]⟩
abbrev S1x1x2304 : Shape := ⟨3, ![1, 1, 2304]⟩
abbrev S64x197x16 : Shape := ⟨3, ![64, 197, 16]⟩

abbrev nBuf : Space → Nat
  | .hbm => 21
  | .vmem => 0
  | .smem => 0
  | _ => 0

abbrev bufTy : (tb : Table) → Fin (tcTables nBuf tb) → BufTy
  | .hbm, ⟨0, _⟩ => ⟨S64x197x768, .f32⟩
  | .hbm, ⟨1, _⟩ => ⟨S2304x768, .f32⟩
  | .hbm, ⟨2, _⟩ => ⟨S2304, .f32⟩
  | .hbm, ⟨3, _⟩ => ⟨S16x768, .f32⟩
  | .hbm, ⟨4, _⟩ => ⟨S768x16, .f32⟩
  | .hbm, ⟨5, _⟩ => ⟨S16x768, .f32⟩
  | .hbm, ⟨6, _⟩ => ⟨S768x16, .f32⟩
  | .hbm, ⟨7, _⟩ => ⟨S16x768, .f32⟩
  | .hbm, ⟨8, _⟩ => ⟨S768x16, .f32⟩
  | .hbm, ⟨9, _⟩ => ⟨S64x197x2304, .f32⟩
  | .hbm, ⟨10, _⟩ => ⟨S1x1x2304, .f32⟩
  | .hbm, ⟨11, _⟩ => ⟨S64x197x2304, .f32⟩
  | .hbm, ⟨12, _⟩ => ⟨S64x197x2304, .f32⟩
  | .hbm, ⟨13, _⟩ => ⟨S64x197x16, .f32⟩
  | .hbm, ⟨14, _⟩ => ⟨S64x197x768, .f32⟩
  | .hbm, ⟨15, _⟩ => ⟨S64x197x16, .f32⟩
  | .hbm, ⟨16, _⟩ => ⟨S64x197x768, .f32⟩
  | .hbm, ⟨17, _⟩ => ⟨S64x197x16, .f32⟩
  | .hbm, ⟨18, _⟩ => ⟨S64x197x768, .f32⟩
  | .hbm, ⟨19, _⟩ => ⟨S64x197x2304, .f32⟩
  | .hbm, ⟨20, _⟩ => ⟨S64x197x2304, .f32⟩
  | _, _ => ⟨S64x197x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩

abbrev nD : Nat := 1
abbrev τ : Topo := Topo.v7x

variable {F : FTy → Type} [FloatOps F]

class Facts₀ : Prop where
  bcast_S2304_S1x1x2304_2 : S2304.BroadcastsInDim S1x1x2304 (![2] : Fin 1 → Fin S1x1x2304.rank)
  bcast_S1x1x2304_S64x197x2304_0_1_2 : S1x1x2304.BroadcastsInDim S64x197x2304 (![0, 1, 2] : Fin 3 → Fin S64x197x2304.rank)
  concatenates_S64x197x768_S64x197x768_S64x197x768_S64x197x2304_d2 : Shape.Concatenates [S64x197x768, S64x197x768, S64x197x768] S64x197x2304 2
  dot_S64x197x768_S2304x768_S64x197x2304_2_1_01_0_n_n_wf : DotDims.WF S64x197x768 S2304x768 S64x197x2304 [2] [1] [0, 1] [0] [] []
  dot_S64x197x768_S16x768_S64x197x16_2_1_01_0_n_n_wf : DotDims.WF S64x197x768 S16x768 S64x197x16 [2] [1] [0, 1] [0] [] []
  dot_S64x197x16_S768x16_S64x197x768_2_1_01_0_n_n_wf : DotDims.WF S64x197x16 S768x16 S64x197x768 [2] [1] [0, 1] [0] [] []

variable [Facts₀]

def dot_S64x197x768_S2304x768_S64x197x2304_2_1_01_0_n_n : DotDims S64x197x768 S2304x768 S64x197x2304 where
  lhsContracting := [2]
  rhsContracting := [1]
  lhsNonContracting := [0, 1]
  rhsNonContracting := [0]
  lhsBatch := []
  rhsBatch := []
  wf := dot_S64x197x768_S2304x768_S64x197x2304_2_1_01_0_n_n_wf
def dot_S64x197x768_S16x768_S64x197x16_2_1_01_0_n_n : DotDims S64x197x768 S16x768 S64x197x16 where
  lhsContracting := [2]
  rhsContracting := [1]
  lhsNonContracting := [0, 1]
  rhsNonContracting := [0]
  lhsBatch := []
  rhsBatch := []
  wf := dot_S64x197x768_S16x768_S64x197x16_2_1_01_0_n_n_wf
def dot_S64x197x16_S768x16_S64x197x768_2_1_01_0_n_n : DotDims S64x197x16 S768x16 S64x197x768 where
  lhsContracting := [2]
  rhsContracting := [1]
  lhsNonContracting := [0, 1]
  rhsNonContracting := [0]
  lhsBatch := []
  rhsBatch := []
  wf := dot_S64x197x16_S768x16_S64x197x768_2_1_01_0_n_n_wf

class Facts : Prop extends Facts₀ where

variable [Facts]
-- ==== Proof.FrameDefsBits.lean ====
/-
  The proof data of the one pipelined call, shared by the frame proof and the value proof.

  The region is entered after three stretches of host operations; `V0` is the contents of every buffer at
  that moment, as the fold of those operations over the launch memory, and `V` reads it at a reference.
  Window `w`'s block at grid point `t` is the view of its array's 512-row (or whole) rectangle there, `iblk`.
  The body stores ONE piece into the output window's buffer: the whole 512 x 2304 rectangle, at the
  payload of the three input blocks (`stored`). The proof data `dats` says what each window's staging
  buffer holds after the body at a point: an input's buffer its block, the output's buffer that piece.
-/
import proofs.«135189_j63608465654579_2_alg».proof.Proof.Gen.Kernel.Launch
import proofs.«135189_j63608465654579_2_alg».proof.Proof.Gen.Kernel.Skeleton
import proofs.«135189_j63608465654579_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Core `c`'s buffer contents when the region is entered: the launch memory after the host operations
    before the region, in order. -/
abbrev V0 (c : Dev nD) : Valuation τ sig (Elt F) :=
  StableHlo.after (List.flatten [hostOps0, hostOps0_1, hostOps0_2]) (fun b => m (c, b))
/-- The same, read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole rectangles the body loads and stores through. -/
abbrev rX : Rect S512x768 := Rect.unit (s := S512x768) ![0, 0] S512x768.size inb_S512x768_S512x768_0_0
abbrev rW : Rect S768x2304 := Rect.unit (s := S768x2304) ![0, 0] S768x2304.size inb_S768x2304_S768x2304_0_0
abbrev rB : Rect S1x2304 := Rect.unit (s := S1x2304) ![0, 0] S1x2304.size inb_S1x2304_S1x2304_0_0
abbrev rO : Rect S512x2304 := Rect.unit (s := S512x2304) ![0, 0] S512x2304.size inb_S512x2304_S512x2304_0_0

/-- What the output window's staging buffer holds after the body, from the three input blocks: its one store. -/
def stored (x0 : Vec F S512x768 .f32) (x1 : Vec F S768x2304 .bf16) (x2 : Vec F S1x2304 .f32) : Vec F S512x2304 .f32 :=
  View.canon [⟨rO, k0_pay1 (View.ld x0 rX) (View.ld x1 rW) (View.ld x2 rB)⟩]

/-- The store is of the whole rectangle, so it covers the buffer. -/
theorem stored_cover (p0 : Vec F S512x2304 .f32) (y : S512x2304.Idx) :
    ∃ pc ∈ ([⟨rO, p0⟩] : List (View.Piece (Elt F) S512x2304 .f32)), y ∈ pc.1.set :=
  View.cover_of_tiled [⟨rO, p0⟩] S512x2304.size (by rfl) y

/-- The proof data of the pipeline on core `c`: the arrays as the region finds them; after the body at point `t`
    each input's buffer at its block and the output's at `stored` of the input blocks; the invariant is the
    scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => stored (iblk m c 0 t) (iblk m c 1 t) (iblk m c 2 t)
  Φ _ := Pipeline.ΦA spec0 c
  q _ := fullShare
  owed _ := 0

/-- The proof data's arrays are the region-entry contents (projected, never unfolded). -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) :
    (dats m 0 c).after 3 t = stored (iblk m c 0 t) (iblk m c 1 t) (iblk m c 2 t) := by dsimp only [dats]

end Cert.Kernel.Hand

end
-- ==== Proof.FrameRunBits.lean ====
/-
  The frame run of the one pipelined call and the frame claim read off it.

  @main is three stretches of host operations, the region, and a tail of two host operations. No host operation
  allocates, each touches unscoped TensorCore buffers only, and the tail writes no window's array; so the
  library's launch theorem for "host lines, one region, host lines" applies once the body's triple is known.
  The body loads its three input blocks whole (and the output buffer, unused), and stores one whole rectangle
  into the output buffer: the buffer then reads as `stored` of the input blocks. None of the nine argument arrays
  is a window's array and none is written by a host operation, so each ends as launched.
-/
import proofs.«135189_j63608465654579_2_alg».proof.Proof.FrameDefsBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- No host operation allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the three stretches of host operations, the region, and the tail: it reduces to the region continued
    by the tail, entered at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The tail touches the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array of the pipeline: each operation writes only its own result buffer, which is no array. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.TRef.unary, StableHlo.TRef.binary, StableHlo.nullary_writes, StableHlo.unary_writes, StableHlo.binary_writes, StableHlo.reshape_writes, StableHlo.nary_writes, Finset.mem_singleton] <;> exact StableHlo.devRef_ne_of_ne (by decide)

/-! ## The argument arrays, at the region's entry and at the end -/

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append, List.nil_append, List.Forall, StableHlo.TRef.unary, StableHlo.TRef.binary, StableHlo.nullary_writes, StableHlo.unary_writes, StableHlo.binary_writes, StableHlo.reshape_writes, StableHlo.nary_writes, Finset.mem_singleton]
    repeat' apply And.intro
    all_goals exact StableHlo.devRef_ne_of_ne (by decide)))

/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append, List.nil_append, List.Forall, StableHlo.TRef.unary, StableHlo.TRef.binary, StableHlo.nullary_writes, StableHlo.unary_writes, StableHlo.binary_writes, StableHlo.reshape_writes, StableHlo.nary_writes, Finset.mem_singleton]
    repeat' apply And.intro
    all_goals exact StableHlo.devRef_ne_of_ne (by decide)))

/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append, List.nil_append, List.Forall, StableHlo.TRef.unary, StableHlo.TRef.binary, StableHlo.nullary_writes, StableHlo.unary_writes, StableHlo.binary_writes, StableHlo.reshape_writes, StableHlo.nary_writes, Finset.mem_singleton]
    repeat' apply And.intro
    all_goals exact StableHlo.devRef_ne_of_ne (by decide)))

/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append, List.nil_append, List.Forall, StableHlo.TRef.unary, StableHlo.TRef.binary, StableHlo.nullary_writes, StableHlo.unary_writes, StableHlo.binary_writes, StableHlo.reshape_writes, StableHlo.nary_writes, Finset.mem_singleton]
    repeat' apply And.intro
    all_goals exact StableHlo.devRef_ne_of_ne (by decide)))

/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append, List.nil_append, List.Forall, StableHlo.TRef.unary, StableHlo.TRef.binary, StableHlo.nullary_writes, StableHlo.unary_writes, StableHlo.binary_writes, StableHlo.reshape_writes, StableHlo.nary_writes, Finset.mem_singleton]
    repeat' apply And.intro
    all_goals exact StableHlo.devRef_ne_of_ne (by decide)))

/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append, List.nil_append, List.Forall, StableHlo.TRef.unary, StableHlo.TRef.binary, StableHlo.nullary_writes, StableHlo.unary_writes, StableHlo.binary_writes, StableHlo.reshape_writes, StableHlo.nary_writes, Finset.mem_singleton]
    repeat' apply And.intro
    all_goals exact StableHlo.devRef_ne_of_ne (by decide)))

/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append, List.nil_append, List.Forall, StableHlo.TRef.unary, StableHlo.TRef.binary, StableHlo.nullary_writes, StableHlo.unary_writes, StableHlo.binary_writes, StableHlo.reshape_writes, StableHlo.nary_writes, Finset.mem_singleton]
    repeat' apply And.intro
    all_goals exact StableHlo.devRef_ne_of_ne (by decide)))

/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append, List.nil_append, List.Forall, StableHlo.TRef.unary, StableHlo.TRef.binary, StableHlo.nullary_writes, StableHlo.unary_writes, StableHlo.binary_writes, StableHlo.reshape_writes, StableHlo.nary_writes, Finset.mem_singleton]
    repeat' apply And.intro
    all_goals exact StableHlo.devRef_ne_of_ne (by decide)))

/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, List.flatten_cons, List.flatten_nil, List.append_nil, List.cons_append, List.nil_append, List.Forall, StableHlo.TRef.unary, StableHlo.TRef.binary, StableHlo.nullary_writes, StableHlo.unary_writes, StableHlo.binary_writes, StableHlo.reshape_writes, StableHlo.nary_writes, Finset.mem_singleton]
    repeat' apply And.intro
    all_goals exact StableHlo.devRef_ne_of_ne (by decide)))

/-- No host operation after the region writes `main_arg0`, and it is no window's array: it ends as launched. -/
theorem W_main_arg0 (c : Dev nD) :
    Pipeline.afterTail₀ cfgs (dats m) 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall, StableHlo.TRef.unary, StableHlo.TRef.binary, StableHlo.nullary_writes, StableHlo.unary_writes, StableHlo.binary_writes, StableHlo.reshape_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation after the region writes `main_arg1`, and it is no window's array: it ends as launched. -/
theorem W_main_arg1 (c : Dev nD) :
    Pipeline.afterTail₀ cfgs (dats m) 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.TRef.unary, StableHlo.TRef.binary, StableHlo.nullary_writes, StableHlo.unary_writes, StableHlo.binary_writes, StableHlo.reshape_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation after the region writes `main_arg2`, and it is no window's array: it ends as launched. -/
theorem W_main_arg2 (c : Dev nD) :
    Pipeline.afterTail₀ cfgs (dats m) 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.TRef.unary, StableHlo.TRef.binary, StableHlo.nullary_writes, StableHlo.unary_writes, StableHlo.binary_writes, StableHlo.reshape_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation after the region writes `main_arg3`, and it is no window's array: it ends as launched. -/
theorem W_main_arg3 (c : Dev nD) :
    Pipeline.afterTail₀ cfgs (dats m) 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append, List.Forall, StableHlo.TRef.unary, StableHlo.TRef.binary, StableHlo.nullary_writes, StableHlo.unary_writes, StableHlo.binary_writes, StableHlo.reshape_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation after the region writes `main_arg4`, and it is no window's array: it ends as launched. -/
theorem W_main_arg4 (c : Dev nD) :
    Pipeline.afterTail₀ cfgs (dats m) 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append, List.nil_append, List.Forall, StableHlo.TRef.unary, StableHlo.TRef.binary, StableHlo.nullary_writes, StableHlo.unary_writes, StableHlo.binary_writes, StableHlo.reshape_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host operation after the region writes `main_arg5`, and it is no window's array: it ends as launched. -/
theorem W_main_arg5 (c : Dev nD) :
    Pipeline.afterTail₀ cfgs (dats m) 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append, List.nil_append, List.Forall, StableHlo.TRef.unary, StableHlo.TRef.binary, StableHlo.nullary_writes, StableHlo.unary_writes, StableHlo.binary_writes, StableHlo.reshape_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host operation after the region writes `main_arg6`, and it is no window's array: it ends as launched. -/
theorem W_main_arg6 (c : Dev nD) :
    Pipeline.afterTail₀ cfgs (dats m) 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append, List.nil_append, List.Forall, StableHlo.TRef.unary, StableHlo.TRef.binary, StableHlo.nullary_writes, StableHlo.unary_writes, StableHlo.binary_writes, StableHlo.reshape_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No host operation after the region writes `main_arg7`, and it is no window's array: it ends as launched. -/
theorem W_main_arg7 (c : Dev nD) :
    Pipeline.afterTail₀ cfgs (dats m) 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append, List.nil_append, List.Forall, StableHlo.TRef.unary, StableHlo.TRef.binary, StableHlo.nullary_writes, StableHlo.unary_writes, StableHlo.binary_writes, StableHlo.reshape_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- No host operation after the region writes `main_arg8`, and it is no window's array: it ends as launched. -/
theorem W_main_arg8 (c : Dev nD) :
    Pipeline.afterTail₀ cfgs (dats m) 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append, List.nil_append, List.Forall, StableHlo.TRef.unary, StableHlo.TRef.binary, StableHlo.nullary_writes, StableHlo.unary_writes, StableHlo.binary_writes, StableHlo.reshape_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-! ## The input windows' buffers when the body is called -/

/-- Input window 0's current staging buffer holds its block at every point, fetched there or not: unfetched, the
    block index has not moved since the fetch, and the body leaves the block in place. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)

/-- Input window 1's current staging buffer holds its block at every point, fetched there or not: unfetched, the
    block index has not moved since the fetch, and the body leaves the block in place. -/
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-- Input window 2's current staging buffer holds its block at every point, fetched there or not: unfetched, the
    block index has not moved since the fetch, and the body leaves the block in place. -/
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-! ## The body's triple -/

set_option maxHeartbeats 1000000 in
/-- The body on whole staging memrefs, the inputs' at contents `x0 x1 x2` and the output's at anything, runs to the
    continuation with the inputs' as they were and the output's at `stored x0 x1 x2`: three whole loads, a load of
    the output buffer whose value is not used, and one store of the whole rectangle. -/
theorem sound_kernel (c : Dev nD) (E : Set ℕ) (i : grid0.Coords)
    (arg1 : Memref sig .tc .vmem S512x768 .f32) (harg1 : arg1.IsWhole)
    (arg2 : Memref sig .tc .vmem S768x2304 .bf16) (harg2 : arg2.IsWhole)
    (arg3 : Memref sig .tc .vmem S1x2304 .f32) (harg3 : arg3.IsWhole)
    (arg4 : Memref sig .tc .vmem S512x2304 .f32) (harg4 : arg4.IsWhole)
    (x0 : Vec F S512x768 .f32) (x1 : Vec F S768x2304 .bf16) (x2 : Vec F S1x2304 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (stored x0 x1 x2)) -∗ K ⟨⟩))
      ⊢ wp frame (wpE (defs₀ (F := F)) Variants.none c none) E (cc0__kernel i arg1 harg1 arg2 harg2 arg3 harg3 arg4 harg4) K := by
  simp only [cc0__kernel_eq_skeleton]; unfold cc0__kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (stored_cover _)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, so the body's triple applies; the invariant and
    the core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding
-- plain definitions in a metavariable's type
set_option backward.isDefEq.respectTransparency.types false in
/-- For any values, from any memory with zero counters: every weakly fair execution of @main on the TensorCores
    terminates, and every final state has every array of the pipeline at what the library computes from the proof
    data and every other unscoped buffer as the tail leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- Every argument array ends as launched: none is a window's array, so each is read off the frame post's second
    clause, and no host operation writes it. -/
theorem kept (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨((h c).2 main_arg0 (Pipeline.mem_restRefs_of main_arg0 (by decide) (by decide))).trans (W_main_arg0 m c),
    ((h c).2 main_arg1 (Pipeline.mem_restRefs_of main_arg1 (by decide) (by decide))).trans (W_main_arg1 m c),
    ((h c).2 main_arg2 (Pipeline.mem_restRefs_of main_arg2 (by decide) (by decide))).trans (W_main_arg2 m c),
    ((h c).2 main_arg3 (Pipeline.mem_restRefs_of main_arg3 (by decide) (by decide))).trans (W_main_arg3 m c),
    ((h c).2 main_arg4 (Pipeline.mem_restRefs_of main_arg4 (by decide) (by decide))).trans (W_main_arg4 m c),
    ((h c).2 main_arg5 (Pipeline.mem_restRefs_of main_arg5 (by decide) (by decide))).trans (W_main_arg5 m c),
    ((h c).2 main_arg6 (Pipeline.mem_restRefs_of main_arg6 (by decide) (by decide))).trans (W_main_arg6 m c),
    ((h c).2 main_arg7 (Pipeline.mem_restRefs_of main_arg7 (by decide) (by decide))).trans (W_main_arg7 m c),
    ((h c).2 main_arg8 (Pipeline.mem_restRefs_of main_arg8 (by decide) (by decide))).trans (W_main_arg8 m c)⟩

/-- The frame claim, at any `F`: @main runs and its nine argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => kept m r h c) (run_main m ρ)

end Cert.Kernel.Hand

end
-- ==== Proof.FrameDefsIdeal.lean ====
/-
  The proof data of the one pipelined call, shared by the frame proof and the value proof.

  The region is entered after three stretches of host operations; `V0` is the contents of every buffer at
  that moment, as the fold of those operations over the launch memory, and `V` reads it at a reference.
  Window `w`'s block at grid point `t` is the view of its array's 512-row (or whole) rectangle there, `iblk`.
  The body stores ONE piece into the output window's buffer: the whole 512 x 2304 rectangle, at the
  payload of the three input blocks (`stored`). The proof data `dats` says what each window's staging
  buffer holds after the body at a point: an input's buffer its block, the output's buffer that piece.
-/
import proofs.«135189_j63608465654579_2_alg».proof.Proof.Gen.KernelIdeal.Launch
import proofs.«135189_j63608465654579_2_alg».proof.Proof.Gen.KernelIdeal.Skeleton
import proofs.«135189_j63608465654579_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Core `c`'s buffer contents when the region is entered: the launch memory after the host operations
    before the region, in order. -/
abbrev V0 (c : Dev nD) : Valuation τ sig (Elt F) :=
  StableHlo.after (List.flatten [hostOps0, hostOps0_1, hostOps0_2]) (fun b => m (c, b))
/-- The same, read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole rectangles the body loads and stores through. -/
abbrev rX : Rect S512x768 := Rect.unit (s := S512x768) ![0, 0] S512x768.size inb_S512x768_S512x768_0_0
abbrev rW : Rect S768x2304 := Rect.unit (s := S768x2304) ![0, 0] S768x2304.size inb_S768x2304_S768x2304_0_0
abbrev rB : Rect S1x2304 := Rect.unit (s := S1x2304) ![0, 0] S1x2304.size inb_S1x2304_S1x2304_0_0
abbrev rO : Rect S512x2304 := Rect.unit (s := S512x2304) ![0, 0] S512x2304.size inb_S512x2304_S512x2304_0_0

/-- What the output window's staging buffer holds after the body, from the three input blocks: its one store. -/
def stored (x0 : Vec F S512x768 .f32) (x1 : Vec F S768x2304 .bf16) (x2 : Vec F S1x2304 .f32) : Vec F S512x2304 .f32 :=
  View.canon [⟨rO, k0_pay1 (View.ld x0 rX) (View.ld x1 rW) (View.ld x2 rB)⟩]

/-- The store is of the whole rectangle, so it covers the buffer. -/
theorem stored_cover (p0 : Vec F S512x2304 .f32) (y : S512x2304.Idx) :
    ∃ pc ∈ ([⟨rO, p0⟩] : List (View.Piece (Elt F) S512x2304 .f32)), y ∈ pc.1.set :=
  View.cover_of_tiled [⟨rO, p0⟩] S512x2304.size (by rfl) y

/-- The proof data of the pipeline on core `c`: the arrays as the region finds them; after the body at point `t`
    each input's buffer at its block and the output's at `stored` of the input blocks; the invariant is the
    scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => stored (iblk m c 0 t) (iblk m c 1 t) (iblk m c 2 t)
  Φ _ := Pipeline.ΦA spec0 c
  q _ := fullShare
  owed _ := 0

/-- The proof data's arrays are the region-entry contents (projected, never unfolded). -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) :
    (dats m 0 c).after 3 t = stored (iblk m c 0 t) (iblk m c 1 t) (iblk m c 2 t) := by dsimp only [dats]

end Cert.KernelIdeal.Hand

end
-- ==== Proof.FrameRunIdeal.lean ====
/-
  The frame run of the one pipelined call and the frame claim read off it.

  @main is three stretches of host operations, the region, and a tail of two host operations. No host operation
  allocates, each touches unscoped TensorCore buffers only, and the tail writes no window's array; so the
  library's launch theorem for "host lines, one region, host lines" applies once the body's triple is known.
  The body loads its three input blocks whole (and the output buffer, unused), and stores one whole rectangle
  into the output buffer: the buffer then reads as `stored` of the input blocks. None of the nine argument arrays
  is a window's array and none is written by a host operation, so each ends as launched.
-/
import proofs.«135189_j63608465654579_2_alg».proof.Proof.FrameDefsIdeal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- No host operation allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the three stretches of host operations, the region, and the tail: it reduces to the region continued
    by the tail, entered at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The tail touches the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array of the pipeline: each operation writes only its own result buffer, which is no array. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.TRef.unary, StableHlo.TRef.binary, StableHlo.nullary_writes, StableHlo.unary_writes, StableHlo.binary_writes, StableHlo.reshape_writes, StableHlo.nary_writes, Finset.mem_singleton] <;> exact StableHlo.devRef_ne_of_ne (by decide)

/-! ## The argument arrays, at the region's entry and at the end -/

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append, List.nil_append, List.Forall, StableHlo.TRef.unary, StableHlo.TRef.binary, StableHlo.nullary_writes, StableHlo.unary_writes, StableHlo.binary_writes, StableHlo.reshape_writes, StableHlo.nary_writes, Finset.mem_singleton]
    repeat' apply And.intro
    all_goals exact StableHlo.devRef_ne_of_ne (by decide)))

/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append, List.nil_append, List.Forall, StableHlo.TRef.unary, StableHlo.TRef.binary, StableHlo.nullary_writes, StableHlo.unary_writes, StableHlo.binary_writes, StableHlo.reshape_writes, StableHlo.nary_writes, Finset.mem_singleton]
    repeat' apply And.intro
    all_goals exact StableHlo.devRef_ne_of_ne (by decide)))

/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append, List.nil_append, List.Forall, StableHlo.TRef.unary, StableHlo.TRef.binary, StableHlo.nullary_writes, StableHlo.unary_writes, StableHlo.binary_writes, StableHlo.reshape_writes, StableHlo.nary_writes, Finset.mem_singleton]
    repeat' apply And.intro
    all_goals exact StableHlo.devRef_ne_of_ne (by decide)))

/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append, List.nil_append, List.Forall, StableHlo.TRef.unary, StableHlo.TRef.binary, StableHlo.nullary_writes, StableHlo.unary_writes, StableHlo.binary_writes, StableHlo.reshape_writes, StableHlo.nary_writes, Finset.mem_singleton]
    repeat' apply And.intro
    all_goals exact StableHlo.devRef_ne_of_ne (by decide)))

/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append, List.nil_append, List.Forall, StableHlo.TRef.unary, StableHlo.TRef.binary, StableHlo.nullary_writes, StableHlo.unary_writes, StableHlo.binary_writes, StableHlo.reshape_writes, StableHlo.nary_writes, Finset.mem_singleton]
    repeat' apply And.intro
    all_goals exact StableHlo.devRef_ne_of_ne (by decide)))

/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append, List.nil_append, List.Forall, StableHlo.TRef.unary, StableHlo.TRef.binary, StableHlo.nullary_writes, StableHlo.unary_writes, StableHlo.binary_writes, StableHlo.reshape_writes, StableHlo.nary_writes, Finset.mem_singleton]
    repeat' apply And.intro
    all_goals exact StableHlo.devRef_ne_of_ne (by decide)))

/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append, List.nil_append, List.Forall, StableHlo.TRef.unary, StableHlo.TRef.binary, StableHlo.nullary_writes, StableHlo.unary_writes, StableHlo.binary_writes, StableHlo.reshape_writes, StableHlo.nary_writes, Finset.mem_singleton]
    repeat' apply And.intro
    all_goals exact StableHlo.devRef_ne_of_ne (by decide)))

/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append, List.nil_append, List.Forall, StableHlo.TRef.unary, StableHlo.TRef.binary, StableHlo.nullary_writes, StableHlo.unary_writes, StableHlo.binary_writes, StableHlo.reshape_writes, StableHlo.nary_writes, Finset.mem_singleton]
    repeat' apply And.intro
    all_goals exact StableHlo.devRef_ne_of_ne (by decide)))

/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, List.flatten_cons, List.flatten_nil, List.append_nil, List.cons_append, List.nil_append, List.Forall, StableHlo.TRef.unary, StableHlo.TRef.binary, StableHlo.nullary_writes, StableHlo.unary_writes, StableHlo.binary_writes, StableHlo.reshape_writes, StableHlo.nary_writes, Finset.mem_singleton]
    repeat' apply And.intro
    all_goals exact StableHlo.devRef_ne_of_ne (by decide)))

/-- No host operation after the region writes `main_arg0`, and it is no window's array: it ends as launched. -/
theorem W_main_arg0 (c : Dev nD) :
    Pipeline.afterTail₀ cfgs (dats m) 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall, StableHlo.TRef.unary, StableHlo.TRef.binary, StableHlo.nullary_writes, StableHlo.unary_writes, StableHlo.binary_writes, StableHlo.reshape_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation after the region writes `main_arg1`, and it is no window's array: it ends as launched. -/
theorem W_main_arg1 (c : Dev nD) :
    Pipeline.afterTail₀ cfgs (dats m) 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.TRef.unary, StableHlo.TRef.binary, StableHlo.nullary_writes, StableHlo.unary_writes, StableHlo.binary_writes, StableHlo.reshape_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation after the region writes `main_arg2`, and it is no window's array: it ends as launched. -/
theorem W_main_arg2 (c : Dev nD) :
    Pipeline.afterTail₀ cfgs (dats m) 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.TRef.unary, StableHlo.TRef.binary, StableHlo.nullary_writes, StableHlo.unary_writes, StableHlo.binary_writes, StableHlo.reshape_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation after the region writes `main_arg3`, and it is no window's array: it ends as launched. -/
theorem W_main_arg3 (c : Dev nD) :
    Pipeline.afterTail₀ cfgs (dats m) 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append, List.Forall, StableHlo.TRef.unary, StableHlo.TRef.binary, StableHlo.nullary_writes, StableHlo.unary_writes, StableHlo.binary_writes, StableHlo.reshape_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation after the region writes `main_arg4`, and it is no window's array: it ends as launched. -/
theorem W_main_arg4 (c : Dev nD) :
    Pipeline.afterTail₀ cfgs (dats m) 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append, List.nil_append, List.Forall, StableHlo.TRef.unary, StableHlo.TRef.binary, StableHlo.nullary_writes, StableHlo.unary_writes, StableHlo.binary_writes, StableHlo.reshape_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host operation after the region writes `main_arg5`, and it is no window's array: it ends as launched. -/
theorem W_main_arg5 (c : Dev nD) :
    Pipeline.afterTail₀ cfgs (dats m) 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append, List.nil_append, List.Forall, StableHlo.TRef.unary, StableHlo.TRef.binary, StableHlo.nullary_writes, StableHlo.unary_writes, StableHlo.binary_writes, StableHlo.reshape_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host operation after the region writes `main_arg6`, and it is no window's array: it ends as launched. -/
theorem W_main_arg6 (c : Dev nD) :
    Pipeline.afterTail₀ cfgs (dats m) 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append, List.nil_append, List.Forall, StableHlo.TRef.unary, StableHlo.TRef.binary, StableHlo.nullary_writes, StableHlo.unary_writes, StableHlo.binary_writes, StableHlo.reshape_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No host operation after the region writes `main_arg7`, and it is no window's array: it ends as launched. -/
theorem W_main_arg7 (c : Dev nD) :
    Pipeline.afterTail₀ cfgs (dats m) 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append, List.nil_append, List.Forall, StableHlo.TRef.unary, StableHlo.TRef.binary, StableHlo.nullary_writes, StableHlo.unary_writes, StableHlo.binary_writes, StableHlo.reshape_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- No host operation after the region writes `main_arg8`, and it is no window's array: it ends as launched. -/
theorem W_main_arg8 (c : Dev nD) :
    Pipeline.afterTail₀ cfgs (dats m) 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append, List.nil_append, List.Forall, StableHlo.TRef.unary, StableHlo.TRef.binary, StableHlo.nullary_writes, StableHlo.unary_writes, StableHlo.binary_writes, StableHlo.reshape_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-! ## The input windows' buffers when the body is called -/

/-- Input window 0's current staging buffer holds its block at every point, fetched there or not: unfetched, the
    block index has not moved since the fetch, and the body leaves the block in place. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)

/-- Input window 1's current staging buffer holds its block at every point, fetched there or not: unfetched, the
    block index has not moved since the fetch, and the body leaves the block in place. -/
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-- Input window 2's current staging buffer holds its block at every point, fetched there or not: unfetched, the
    block index has not moved since the fetch, and the body leaves the block in place. -/
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-! ## The body's triple -/

set_option maxHeartbeats 1000000 in
/-- The body on whole staging memrefs, the inputs' at contents `x0 x1 x2` and the output's at anything, runs to the
    continuation with the inputs' as they were and the output's at `stored x0 x1 x2`: three whole loads, a load of
    the output buffer whose value is not used, and one store of the whole rectangle. -/
theorem sound_kernel (c : Dev nD) (E : Set ℕ) (i : grid0.Coords)
    (arg1 : Memref sig .tc .vmem S512x768 .f32) (harg1 : arg1.IsWhole)
    (arg2 : Memref sig .tc .vmem S768x2304 .bf16) (harg2 : arg2.IsWhole)
    (arg3 : Memref sig .tc .vmem S1x2304 .f32) (harg3 : arg3.IsWhole)
    (arg4 : Memref sig .tc .vmem S512x2304 .f32) (harg4 : arg4.IsWhole)
    (x0 : Vec F S512x768 .f32) (x1 : Vec F S768x2304 .bf16) (x2 : Vec F S1x2304 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (stored x0 x1 x2)) -∗ K ⟨⟩))
      ⊢ wp frame (wpE (defs₀ (F := F)) Variants.none c none) E (cc0__kernel i arg1 harg1 arg2 harg2 arg3 harg3 arg4 harg4) K := by
  simp only [cc0__kernel_eq_skeleton]; unfold cc0__kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (stored_cover _)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, so the body's triple applies; the invariant and
    the core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding
-- plain definitions in a metavariable's type
set_option backward.isDefEq.respectTransparency.types false in
/-- For any values, from any memory with zero counters: every weakly fair execution of @main on the TensorCores
    terminates, and every final state has every array of the pipeline at what the library computes from the proof
    data and every other unscoped buffer as the tail leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- Every argument array ends as launched: none is a window's array, so each is read off the frame post's second
    clause, and no host operation writes it. -/
theorem kept (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨((h c).2 main_arg0 (Pipeline.mem_restRefs_of main_arg0 (by decide) (by decide))).trans (W_main_arg0 m c),
    ((h c).2 main_arg1 (Pipeline.mem_restRefs_of main_arg1 (by decide) (by decide))).trans (W_main_arg1 m c),
    ((h c).2 main_arg2 (Pipeline.mem_restRefs_of main_arg2 (by decide) (by decide))).trans (W_main_arg2 m c),
    ((h c).2 main_arg3 (Pipeline.mem_restRefs_of main_arg3 (by decide) (by decide))).trans (W_main_arg3 m c),
    ((h c).2 main_arg4 (Pipeline.mem_restRefs_of main_arg4 (by decide) (by decide))).trans (W_main_arg4 m c),
    ((h c).2 main_arg5 (Pipeline.mem_restRefs_of main_arg5 (by decide) (by decide))).trans (W_main_arg5 m c),
    ((h c).2 main_arg6 (Pipeline.mem_restRefs_of main_arg6 (by decide) (by decide))).trans (W_main_arg6 m c),
    ((h c).2 main_arg7 (Pipeline.mem_restRefs_of main_arg7 (by decide) (by decide))).trans (W_main_arg7 m c),
    ((h c).2 main_arg8 (Pipeline.mem_restRefs_of main_arg8 (by decide) (by decide))).trans (W_main_arg8 m c)⟩

/-- The frame claim, at any `F`: @main runs and its nine argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => kept m r h c) (run_main m ρ)

end Cert.KernelIdeal.Hand

end
-- ==== Proof.KernelPayload.lean ====
/-
  The body's arithmetic at one element of its 512 x 2304 block, on the extended reals.

  The body multiplies the 512 x 768 block of x (rounded to bf16: the identity on the extended reals) by the
  768 x 2304 folded weight into a zero accumulator and adds the bias row broadcast down the 512 rows. At
  (p, q) that is  sum_k x0 (p, k) * x1 (k, q)  +  x2 (0, q):  the matrix unit's contraction index has one
  axis, identified with k : Fin 768; the left operand is read at (p, k), the right at (k, q).
-/
import proofs.«135189_j63608465654579_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- The body's product: [512,768] x [768,2304], contracting axis 1 of the left with axis 0 of the right. -/
abbrev D := dot_S512x768_S768x2304_S512x2304_1_0_0_1_n_n

theorem lhs_row (i : S512x2304.Idx) (q : D.contr.Idx) : (D.lhsIdx i q 0).val = (i 0).val := by
  unfold DotDims.lhsIdx
  rw [dif_neg (show ¬(0 : Fin S512x768.rank) ∈ D.lhsBatch by decide), dif_pos (show (0 : Fin S512x768.rank) ∈ D.lhsNonContracting by decide)]
  rfl
theorem lhs_contr (i : S512x2304.Idx) (q : D.contr.Idx) : (D.lhsIdx i q 1).val = (q ⟨0, by decide⟩).val :=
  D.lhsIdx_val_of_single rfl i q
theorem rhs_contr (i : S512x2304.Idx) (q : D.contr.Idx) : (D.rhsIdx i q 0).val = (q ⟨0, by decide⟩).val :=
  D.rhsIdx_val_of_single rfl i q
theorem rhs_col (i : S512x2304.Idx) (q : D.contr.Idx) : (D.rhsIdx i q 1).val = (i 1).val := by
  unfold DotDims.rhsIdx
  rw [dif_neg (show ¬(1 : Fin S768x2304.rank) ∈ D.rhsBatch by decide), dif_pos (show (1 : Fin S768x2304.rank) ∈ D.rhsNonContracting by decide)]
  rfl

/-- The matrix product into the zero accumulator, at (p, q): the sum over k of left (p, k) times right (k, q). -/
theorem matmul_at (l : FVec Ideal S512x768 .bf16) (r : FVec Ideal S768x2304 .bf16) (p : Fin 512) (q : Fin 2304) :
    matmul D none l r (constant S512x2304 .f32 0x00000000#32) (ix2 p q) = ∑ k : Fin 768, l (ix2 p k) * r (ix2 k q) := by
  simp only [matmul]
  rw [Ideal.matmul_constant_zero_apply, ← Equiv.sum_comp (contrEquiv1 D 768 rfl rfl).symm]
  refine Finset.sum_congr rfl fun k _ => ?_
  have hk := contrEquiv1_symm_val D 768 rfl rfl k
  have el : D.lhsIdx (ix2 p q) ((contrEquiv1 D 768 rfl rfl).symm k) = ix2 p k := funext fun a => Fin.ext (by
    match a with
    | ⟨0, _⟩ => exact lhs_row _ _
    | ⟨1, _⟩ => exact (lhs_contr _ _).trans hk)
  have er : D.rhsIdx (ix2 p q) ((contrEquiv1 D 768 rfl rfl).symm k) = ix2 k q := funext fun a => Fin.ext (by
    match a with
    | ⟨0, _⟩ => exact (rhs_contr _ _).trans hk
    | ⟨1, _⟩ => exact rhs_col _ _)
  rw [el, er]

/-- The payload at (p, q). -/
theorem pay_at (x0 : Vec Ideal S512x768 .f32) (x1 : Vec Ideal S768x2304 .bf16) (x2 : Vec Ideal S1x2304 .f32)
    (p : Fin 512) (q : Fin 2304) :
    k0_pay1 x0 x1 x2 (ix2 p q) = (∑ k : Fin 768, x0 (ix2 p k) * x1 (ix2 k q)) + x2 (ix2 (0 : Fin 1) q) := by
  unfold k0_pay1
  rw [addf_apply, shapeCast_self, shapeCast_self, shapeCast_self, matmul_at, broadcastTo_1b_ab_apply]
  rfl

end Cert.KernelIdeal.Payload

end
-- ==== Proof.KernelValue.lean ====
/-
  From blocks to the array: what the output array of the pipelined call holds when the region ends.

  The grid has 25 points; point t reads rows 512 t .. 512 t + 511 of the padded x, the whole folded weight and
  the whole bias row, and writes back rows 512 t .. 512 t + 511 of the output. So what point t writes is block t of
  ONE function of the three arrays the region finds,
      out (r, q) = sum_k xpad (r, k) * weff (k, q) + brow (0, q)        (`Gout`),
  and since the 25 row blocks tile the 12800 rows (row r lies in block r / 512), the array ends at that function.
-/
import proofs.«135189_j63608465654579_2_alg».proof.Proof.FrameDefsIdeal
import proofs.«135189_j63608465654579_2_alg».proof.Proof.KernelPayload
import Idealize.ShloMosaic.Lib.Pipeline.Value

set_option maxRecDepth 16384

noncomputable section

open scoped BigOperators

namespace Cert.KernelIdeal.KernelValue

open Cert.KernelIdeal Cert.KernelIdeal.Gen Cert.KernelIdeal.Hand Cert.KernelIdeal.Payload
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

theorem hz : (![0, 0] : Fin 2 → Nat) = fun _ => 0 := funext fun a => by fin_cases a <;> rfl

/-- The output array as one function of the three arrays the region reads. -/
def Gout (a1 : Vec Ideal S12800x768 .f32) (a18 : Vec Ideal S768x2304 .bf16) (a3 : Vec Ideal S1x2304 .f32) :
    Vec Ideal S12800x2304 .f32 :=
  fun i => (∑ k : Fin 768, a1 (ix2 (i 0) k) * a18 (ix2 k (i 1))) + a3 (ix2 (0 : Fin 1) (i 1))

/-- The printed index maps, decided over the grid: x's and the output's row block is the point, every other
    block index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem t_lt (t : Fin cfg0.N) : t.val < 25 := lt_of_lt_of_eq t.isLt N_0

/-- Where the blocks' elements sit in their arrays. -/
theorem emb_x (t : Fin cfg0.N) (p : Fin 512) (k : Fin 768) :
    ((cfg0.win 0).blk t).view.emb (ix2 p k) = ix2 (⟨t.val * 512 + p.val, by have := t_lt t; omega⟩ : Fin 12800) k := by
  obtain ⟨e0, e1, -⟩ := idx_facts t
  funext a; apply Fin.ext
  match a with
  | ⟨0, _⟩ => show win0_0.index t (0 : Fin 2) * 512 + 1 * p.val = t.val * 512 + p.val; omega
  | ⟨1, _⟩ => show win0_0.index t (1 : Fin 2) * 768 + 1 * k.val = k.val; omega
theorem emb_w (t : Fin cfg0.N) (k : Fin 768) (q : Fin 2304) :
    ((cfg0.win 1).blk t).view.emb (ix2 k q) = ix2 k q := by
  obtain ⟨-, -, e2, e3, -⟩ := idx_facts t
  funext a; apply Fin.ext
  match a with
  | ⟨0, _⟩ => show win0_1.index t (0 : Fin 2) * 768 + 1 * k.val = k.val; omega
  | ⟨1, _⟩ => show win0_1.index t (1 : Fin 2) * 2304 + 1 * q.val = q.val; omega
theorem emb_b (t : Fin cfg0.N) (u : Fin 1) (q : Fin 2304) :
    ((cfg0.win 2).blk t).view.emb (ix2 u q) = ix2 u q := by
  obtain ⟨-, -, -, -, e4, e5, -⟩ := idx_facts t
  funext a; apply Fin.ext
  match a with
  | ⟨0, _⟩ => show win0_2.index t (0 : Fin 2) * 1 + 1 * u.val = u.val; omega
  | ⟨1, _⟩ => show win0_2.index t (1 : Fin 2) * 2304 + 1 * q.val = q.val; omega
theorem emb_o (t : Fin cfg0.N) (p : Fin 512) (q : Fin 2304) :
    ((cfg0.win 3).blk t).view.emb (ix2 p q) = ix2 (⟨t.val * 512 + p.val, by have := t_lt t; omega⟩ : Fin 12800) q := by
  obtain ⟨-, -, -, -, -, -, e6, e7⟩ := idx_facts t
  funext a; apply Fin.ext
  match a with
  | ⟨0, _⟩ => show win0_3.index t (0 : Fin 2) * 512 + 1 * p.val = t.val * 512 + p.val; omega
  | ⟨1, _⟩ => show win0_3.index t (1 : Fin 2) * 2304 + 1 * q.val = q.val; omega

/-- The three input blocks at a point, element by element, as entries of the arrays the region finds. -/
theorem iblk_x (c : Dev nD) (t : Fin cfg0.N) (p : Fin 512) (k : Fin 768) :
    (iblk m c 0 t : Vec Ideal S512x768 .f32) (ix2 p k) = (V m c main_v1 : Vec Ideal S12800x768 .f32) (ix2 (⟨t.val * 512 + p.val, by have := t_lt t; omega⟩ : Fin 12800) k) := by
  show (V m c main_v1 : Vec Ideal S12800x768 .f32) (((cfg0.win 0).blk t).view.emb (ix2 p k)) = _
  rw [emb_x]
theorem iblk_w (c : Dev nD) (t : Fin cfg0.N) (k : Fin 768) (q : Fin 2304) :
    (iblk m c 1 t : Vec Ideal S768x2304 .bf16) (ix2 k q) = (V m c main_v18 : Vec Ideal S768x2304 .bf16) (ix2 k q) := by
  show (V m c main_v18 : Vec Ideal S768x2304 .bf16) (((cfg0.win 1).blk t).view.emb (ix2 k q)) = _
  rw [emb_w]
theorem iblk_b (c : Dev nD) (t : Fin cfg0.N) (u : Fin 1) (q : Fin 2304) :
    (iblk m c 2 t : Vec Ideal S1x2304 .f32) (ix2 u q) = (V m c main_v3 : Vec Ideal S1x2304 .f32) (ix2 u q) := by
  show (V m c main_v3 : Vec Ideal S1x2304 .f32) (((cfg0.win 2).blk t).view.emb (ix2 u q)) = _
  rw [emb_b]

/-- WHAT POINT `t` WRITES BACK is block `t` of `Gout` of the arrays as the region finds them. -/
theorem flushed_eq (c : Dev nD) (t : Fin cfg0.N) :
    (dats m 0 c).flushed 3 t = ((cfg0.win 3).blk t).view.read (Elt Ideal) (Gout (V m c main_v1) (V m c main_v18) (V m c main_v3)) := by
  show (cfg0.win 3).cut (grid0.coords t) ((dats m 0 c).after 3 t) = _
  rw [after_3]
  unfold stored
  rw [View.canon_unit_zero hz]
  simp only [View.ld_unit_zero (S := S512x768) hz, View.ld_unit_zero (S := S768x2304) hz, View.ld_unit_zero (S := S1x2304) hz]
  funext j
  obtain ⟨p, q, rfl⟩ : ∃ (p : Fin 512) (q : Fin 2304), j = ix2 p q := ⟨j 0, j 1, eq_ix2 j⟩
  refine (pay_at (iblk m c 0 t) (iblk m c 1 t) (iblk m c 2 t) p q).trans ?_
  show _ = Gout (V m c main_v1) (V m c main_v18) (V m c main_v3) (((cfg0.win 3).blk t).view.emb (ix2 p q))
  rw [emb_o, iblk_b]
  refine congrArg (· + _) (Finset.sum_congr rfl fun k _ => ?_)
  rw [iblk_x, iblk_w]

/-- An index of the array is in point `t`'s block iff each coordinate is in the block's range on its axis. -/
theorem mem_blk (t : Fin cfg0.N) (i : S12800x2304.Idx) :
    i ∈ ((cfg0.win 3).blk t).view.set ↔ ∀ a : Fin 2, win0_3.index t a * S512x2304.size a ≤ (i a).val ∧ (i a).val < win0_3.index t a * S512x2304.size a + S512x2304.size a := by
  show i ∈ ((View.whole main_v19).slice (win0_3.rect t)).set ↔ _
  rw [View.set_slice_whole, Rect.mem_set_unit]
  exact Iff.rfl

/-- Every index of the output array is in some point's block: row r in block r / 512. -/
theorem cover (i : S12800x2304.Idx) :
    ∃ t : Fin cfg0.N, (cfg0.win 3).flush t = true ∧ i ∈ ((cfg0.win 3).blk t).view.set := by
  have hi0 : (i 0).val < 12800 := (i 0).isLt
  have hi1 : (i 1).val < 2304 := (i 1).isLt
  have hN : cfg0.N = 25 := N_0
  refine ⟨⟨(i 0).val / 512, by rw [hN]; omega⟩, flush0_3 _, ?_⟩
  obtain ⟨-, -, -, -, -, -, e6, e7⟩ := idx_facts ⟨(i 0).val / 512, by rw [hN]; omega⟩
  rw [mem_blk]
  intro a
  match a with
  | ⟨0, _⟩ =>
    show win0_3.index _ (0 : Fin 2) * 512 ≤ (i 0).val ∧ (i 0).val < win0_3.index _ (0 : Fin 2) * 512 + 512
    rw [e6]; show (i 0).val / 512 * 512 ≤ (i 0).val ∧ (i 0).val < (i 0).val / 512 * 512 + 512; omega
  | ⟨1, _⟩ =>
    show win0_3.index _ (1 : Fin 2) * 2304 ≤ (i 1).val ∧ (i 1).val < win0_3.index _ (1 : Fin 2) * 2304 + 2304
    rw [e7]; omega

/-- THE ARRAY after the region: `Gout` of the three arrays the region reads. -/
theorem final (c : Dev nD) : (dats m 0 c).arrAt 3 cfg0.N = Gout (V m c main_v1) (V m c main_v18) (V m c main_v3) :=
  (dats m 0 c).arrAt_eq_of_cover 3 _ (fun t _ => flushed_eq m c t) (cover)

end Cert.KernelIdeal.KernelValue

end
-- ==== Proof.KernelTail.lean ====
/-
  The host lines after the region: the output array [12800, 2304] is cut to its first 12608 rows and read as
  [64, 197, 2304] in row-major order, so element (bb, n, j) of the result is row 197 bb + n, column j, of the array
  the region leaves.
-/
import proofs.«135189_j63608465654579_2_alg».proof.Proof.FrameDefsIdeal
import proofs.«135189_j63608465654579_2_alg».proof.Proof.KernelValue
import Idealize.ShloMosaic.Lib.StableHlo.Run
import Idealize.ShloMosaic.Lib.Pipeline.Value

set_option maxRecDepth 16384

noncomputable section

open scoped BigOperators

namespace Cert.KernelIdeal.KernelTail

open Cert.KernelIdeal Cert.KernelIdeal.Gen Cert.KernelIdeal.Hand Cert.KernelIdeal.KernelValue
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ)

/-- The result buffer after the host tail: the reshape of the slice of the output array's final contents. -/
theorem tail_eq (c : Dev nD) : Pipeline.afterTail₀ cfgs (dats m) 0 (V0 m) [hostOps1] c main_v21
    = shapeCast S64x197x2304 (extractStridedSlice S12608x2304 ![0, 0] ((dats m 0 c).arrAt 3 cfg0.N) slices_S12800x2304_S12608x2304_0_0) shapeCasts_S12608x2304_S64x197x2304 := by
  unfold Pipeline.afterTail₀
  show StableHlo.after hostOps1 _ (Proc.devRef .tc main_v21) = _
  after_results
  have h : Pipeline.withArrays (cfgs 0).spec c (V0 m c) (fun w => (dats m 0 c).arrAt w (cfgs 0).N) (Proc.devRef .tc main_v19)
      = (dats m 0 c).arrAt 3 cfg0.N :=
    Pipeline.withArrays_arr spec0 launch0.win.arr_inj c _ _ 3
  rw [h]
  rfl

/-- Row 197 bb + n is one of the 12608 kept rows. -/
theorem row_lt (bb : Fin 64) (n : Fin 197) : bb.val * 197 + n.val < 12608 := by
  have := bb.isLt; have := n.isLt; omega

/-- Element (bb, n, j) of the result is the output array's function at row 197 bb + n. -/
theorem tail_at (c : Dev nD) (bb : Fin 64) (n : Fin 197) (j : Fin 2304) :
    (Pipeline.afterTail₀ cfgs (dats m) 0 (V0 m) [hostOps1] c main_v21 : Vec Ideal S64x197x2304 .f32) (ix3 bb n j)
      = Gout (V m c main_v1) (V m c main_v18) (V m c main_v3)
          (ix2 (⟨bb.val * 197 + n.val, by have := row_lt bb n; omega⟩ : Fin 12800) j) := by
  rw [tail_eq, final]
  refine (shapeCast_apply _ shapeCasts_S12608x2304_S64x197x2304 (ix3 bb n j)
    (ix2 (⟨bb.val * 197 + n.val, row_lt bb n⟩ : Fin 12608) j) ?_).trans ?_
  · rw [Shape.rowMajor_val_two, Shape.rowMajor_val_three]
    rfl
  · exact extractStridedSlice_apply _ _ slices_S12800x2304_S12608x2304_0_0 _
      (ix2 (⟨bb.val * 197 + n.val, by have := row_lt bb n; omega⟩ : Fin 12800) j) (fun a => by
        match a with
        | ⟨0, _⟩ => exact (Nat.zero_add _).symm
        | ⟨1, _⟩ => exact (Nat.zero_add _).symm)

end Cert.KernelIdeal.KernelTail

end
-- ==== Proof.Spec.lean ====
/-
  The mathematics of the two programs, index by index on the extended reals, free of either program.

  Inputs: x [64,197,768]; a weight w [2304,768] and bias [2304]; three low-rank pairs (a_q, b_q), (a_k, b_k),
  (a_v, b_v) with a [16,768] and b [768,16]. Output [64,197,2304], whose 2304 columns are three thirds q, k, v.

  The reference computes, at row (bb, n) and column j,
      sum_k x k * w j k  +  bias j  +  (the low-rank path of j's third):  sum_r (sum_k x k * a r k) * b c r,
  c the column inside the third (`refAt`).

  The kernel first folds the three paths into the weight: A_full [768,48] lays a_q^T, a_k^T, a_v^T side by side,
  B_full [48,2304] is block diagonal with b_q^T, b_k^T, b_v^T and zeros elsewhere, and
      w_eff k j = w j k + sum_l A_full k l * B_full l j   (`wEff`);
  then one product, x * w_eff + bias (`kerAt`). The two agree when every entry is a real number, because the
  product distributes over the sum and the zero blocks drop out (`kerAt_eq_refAt`).
-/
import Idealize.ShloMosaic.Lib.ValueIdx
import Idealize.ShloMosaic.PureOps.Ideal

noncomputable section

open scoped BigOperators

namespace Cert.Lora

open Idealize.ShloMosaic Idealize.ShloMosaic.ValueIdx

abbrev SX : Shape := ⟨3, ![64, 197, 768]⟩
abbrev SW : Shape := ⟨2, ![2304, 768]⟩
abbrev SBias : Shape := ⟨1, ![2304]⟩
abbrev SA : Shape := ⟨2, ![16, 768]⟩
abbrev SLb : Shape := ⟨2, ![768, 16]⟩
abbrev SOut : Shape := ⟨3, ![64, 197, 2304]⟩

/-- Every entry of an array is a real number. -/
def AllReal {S : Shape} (v : S.Idx → EReal) : Prop := ∀ i, ∃ r : ℝ, v i = (r : EReal)

/-- One low-rank path at one row of x: column `c` of `(xrow * a^T) * b^T`. -/
def path (xrow : Fin 768 → EReal) (a : SA.Idx → EReal) (b : SLb.Idx → EReal) (c : Fin 768) : EReal :=
  ∑ r : Fin 16, (∑ k : Fin 768, xrow k * a (ix2 r k)) * b (ix2 c r)

/-- The low-rank term of output column `j`: the q path on columns 0-767, the k path on 768-1535, the v path on
    1536-2303, each at the column inside its third. -/
def lora (xrow : Fin 768 → EReal) (aq : SA.Idx → EReal) (bq : SLb.Idx → EReal) (ak : SA.Idx → EReal) (bk : SLb.Idx → EReal)
    (av : SA.Idx → EReal) (bv : SLb.Idx → EReal) (j : Fin 2304) : EReal :=
  if h : j.val < 768 then path xrow aq bq ⟨j.val, h⟩
  else if h' : j.val < 1536 then path xrow ak bk ⟨j.val - 768, by omega⟩
  else path xrow av bv ⟨j.val - 1536, by omega⟩

/-- The reference's element (bb, n, j). -/
def refAt (x : SX.Idx → EReal) (w : SW.Idx → EReal) (bias : SBias.Idx → EReal) (aq : SA.Idx → EReal) (bq : SLb.Idx → EReal)
    (ak : SA.Idx → EReal) (bk : SLb.Idx → EReal) (av : SA.Idx → EReal) (bv : SLb.Idx → EReal)
    (bb : Fin 64) (n : Fin 197) (j : Fin 2304) : EReal :=
  ((∑ k : Fin 768, x (ix3 bb n k) * w (ix2 j k)) + bias (ix1 j)) + lora (fun k => x (ix3 bb n k)) aq bq ak bk av bv j

/-- A_full [768, 48]: a_q^T, a_k^T, a_v^T side by side. -/
def aFull (aq ak av : SA.Idx → EReal) (k : Fin 768) (l : Fin 48) : EReal :=
  if h : l.val < 16 then aq (ix2 ⟨l.val, h⟩ k)
  else if h' : l.val < 32 then ak (ix2 ⟨l.val - 16, by omega⟩ k)
  else av (ix2 ⟨l.val - 32, by omega⟩ k)

/-- B_full [48, 2304]: block diagonal, b_q^T on rows 0-15 and columns 0-767, b_k^T on rows 16-31 and columns
    768-1535, b_v^T on rows 32-47 and columns 1536-2303, zero elsewhere. -/
def bFull (bq bk bv : SLb.Idx → EReal) (l : Fin 48) (j : Fin 2304) : EReal :=
  if hl : l.val < 16 then
    (if hj : j.val < 768 then bq (ix2 ⟨j.val, hj⟩ ⟨l.val, hl⟩) else 0)
  else if hl' : l.val < 32 then
    (if hj : 768 ≤ j.val ∧ j.val < 1536 then bk (ix2 ⟨j.val - 768, by omega⟩ ⟨l.val - 16, by omega⟩) else 0)
  else
    (if hj : 1536 ≤ j.val then bv (ix2 ⟨j.val - 1536, by omega⟩ ⟨l.val - 32, by omega⟩) else 0)

/-- The folded weight [768, 2304]. -/
def wEff (w : SW.Idx → EReal) (aq : SA.Idx → EReal) (bq : SLb.Idx → EReal) (ak : SA.Idx → EReal) (bk : SLb.Idx → EReal)
    (av : SA.Idx → EReal) (bv : SLb.Idx → EReal) (k : Fin 768) (j : Fin 2304) : EReal :=
  w (ix2 j k) + ∑ l : Fin 48, aFull aq ak av k l * bFull bq bk bv l j

/-- The kernel's element (bb, n, j): one product with the folded weight, plus the bias. -/
def kerAt (x : SX.Idx → EReal) (w : SW.Idx → EReal) (bias : SBias.Idx → EReal) (aq : SA.Idx → EReal) (bq : SLb.Idx → EReal)
    (ak : SA.Idx → EReal) (bk : SLb.Idx → EReal) (av : SA.Idx → EReal) (bv : SLb.Idx → EReal)
    (bb : Fin 64) (n : Fin 197) (j : Fin 2304) : EReal :=
  (∑ k : Fin 768, x (ix3 bb n k) * wEff w aq bq ak bk av bv k j) + bias (ix1 j)

end Cert.Lora

end
-- ==== Proof.HostPrefixTerms.lean ====
import proofs.«135189_j63608465654579_2_alg».proof.Proof.FrameDefsIdeal
import proofs.«135189_j63608465654579_2_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HostPrefix

open Cert.KernelIdeal Cert.KernelIdeal.Gen Cert.KernelIdeal.Hand
open Idealize.ShloMosaic Idealize.ShloMosaic.ValueIdx Idealize.ShloMosaic.TcCoe Idealize.SL.Sem
open Idealize.ShloMosaic.StableHlo

variable (m : (ℓ : Loc nD τ sig) → Buf (Elt Ideal) ℓ) (c : Dev nD)

/-! ## The host operations' composed terms, as functions of the launch arrays -/

/-- x reshaped to [12608, 768] and padded with 192 rows below. -/
def xPadT (x : S64x197x768.Idx → EReal) : S12800x768.Idx → EReal :=
  pad S12800x768 ![0, 0] ![192, 0] ![0, 0] (shapeCast S12608x768 x shapeCasts_S64x197x768_S12608x768)
    (sitofp (F := Ideal) .f32 (constantI S_ 32 0#32)) pads_S12608x768_S12800x768_01920_000 h_S_

/-- The zero block [16, 768]. -/
def zeroT : S16x768.Idx → EReal :=
  broadcastInDim S16x768 ![] bcast_S_S16x768 (constant (F := Ideal) S_ .f32 0x00000000#32)

/-- A_full [768, 48]: the three a's transposed, side by side. -/
def aFullT (aq ak av : S16x768.Idx → EReal) : S768x48.Idx → EReal :=
  concatenate S768x48 1 [⟨S768x16, transpose S768x16 [1, 0] aq transposes_S16x768_S768x16_1_0⟩,
    ⟨S768x16, transpose S768x16 [1, 0] ak transposes_S16x768_S768x16_1_0⟩,
    ⟨S768x16, transpose S768x16 [1, 0] av transposes_S16x768_S768x16_1_0⟩] concatenates_S768x16_S768x16_S768x16_S768x48_d1

/-- One row block [16, 2304] of B_full: three [16, 768] blocks side by side. -/
def rowT (p0 p1 p2 : S16x768.Idx → EReal) : S16x2304.Idx → EReal :=
  concatenate S16x2304 1 [⟨S16x768, p0⟩, ⟨S16x768, p1⟩, ⟨S16x768, p2⟩] concatenates_S16x768_S16x768_S16x768_S16x2304_d1

/-- B_full [48, 2304]: block diagonal with the three b's transposed. -/
def bFullT (bq bk bv : S768x16.Idx → EReal) : S48x2304.Idx → EReal :=
  concatenate S48x2304 0 [⟨S16x2304, rowT (transpose S16x768 [1, 0] bq transposes_S768x16_S16x768_1_0) zeroT zeroT⟩,
    ⟨S16x2304, rowT zeroT (transpose S16x768 [1, 0] bk transposes_S768x16_S16x768_1_0) zeroT⟩,
    ⟨S16x2304, rowT zeroT zeroT (transpose S16x768 [1, 0] bv transposes_S768x16_S16x768_1_0)⟩]
    concatenates_S16x2304_S16x2304_S16x2304_S48x2304_d0

/-- The folded weight [768, 2304], converted to bf16. -/
def wEffT (w : S2304x768.Idx → EReal) (aq : S16x768.Idx → EReal) (bq : S768x16.Idx → EReal) (ak : S16x768.Idx → EReal)
    (bk : S768x16.Idx → EReal) (av : S16x768.Idx → EReal) (bv : S768x16.Idx → EReal) : S768x2304.Idx → EReal :=
  truncf (F := Ideal) .bf16 (addf (F := Ideal) (φ := .f32) (transpose S768x2304 [1, 0] w transposes_S2304x768_S768x2304_1_0)
    (Host.dotGeneral (F := Ideal) (φ₁ := .f32) (φ₂ := .f32) dot_S768x48_S48x2304_S768x2304_1_0_0_1_n_n none (aFullT aq ak av) (bFullT bq bk bv)))
    bitsLt_bf16_f32

/-! ## Each input array of the region is its term of the launch arrays (the fold opened once per array) -/

/-- The bias row as the region finds it: the bias vector cast to one row. -/
theorem V_v3_eq :
    (V m c main_v3 : S1x2304.Idx → EReal)
      = shapeCast S1x2304 (m ((c : Thread nD τ).loc main_arg2) : S2304.Idx → EReal) shapeCasts_S2304_S1x2304 := by
  dsimp only [V, V0]
  simp only [hostOps0, hostOps0_1, hostOps0_2, List.flatten_cons, List.flatten_nil, List.append_nil, List.cons_append,
    List.nil_append]
  after_results
  rfl

/-- The padded x as the region finds it. -/
theorem V_v1_eq :
    (V m c main_v1 : S12800x768.Idx → EReal) = xPadT (m ((c : Thread nD τ).loc main_arg0)) := by
  dsimp only [V, V0]
  simp only [hostOps0, hostOps0_1, hostOps0_2, List.flatten_cons, List.flatten_nil, List.append_nil, List.cons_append,
    List.nil_append]
  after_results
  rfl

/-- The folded weight as the region finds it. -/
theorem V_v18_eq :
    (V m c main_v18 : S768x2304.Idx → EReal)
      = wEffT (m ((c : Thread nD τ).loc main_arg1)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) := by
  dsimp only [V, V0]
  simp only [hostOps0, hostOps0_1, hostOps0_2, List.flatten_cons, List.flatten_nil, List.append_nil, List.cons_append,
    List.nil_append]
  after_results
  rfl

end Cert.KernelIdeal.HostPrefix

end
-- ==== Proof.HostPrefixCat.lean ====
import proofs.«135189_j63608465654579_2_alg».proof.Proof.HostPrefixTerms

set_option maxRecDepth 16384

noncomputable section

open scoped BigOperators

namespace Cert.KernelIdeal.HostPrefix

open Cert.KernelIdeal Cert.KernelIdeal.Gen Cert.KernelIdeal.Hand
open Idealize.ShloMosaic Idealize.ShloMosaic.ValueIdx Idealize.ShloMosaic.TcCoe Idealize.SL.Sem

variable (m : (ℓ : Loc nD τ sig) → Buf (Elt Ideal) ℓ) (c : Dev nD)

/-! ## Three equal blocks laid side by side, or one above the other, read at an index -/

section Blocks
variable {α : Type}

/-- Side by side: a column in the first block. -/
theorem hcat3_0 {R n N : Nat} (x0 x1 x2 : (⟨2, ![R, n]⟩ : Shape).Idx → α)
    (h : Shape.Concatenates [(⟨2, ![R, n]⟩ : Shape), ⟨2, ![R, n]⟩, ⟨2, ![R, n]⟩] ⟨2, ![R, N]⟩ 1)
    (p : Fin R) (q : Fin N) (q' : Fin n) (hq : q'.val = q.val) :
    concatenate ⟨2, ![R, N]⟩ 1 [⟨⟨2, ![R, n]⟩, x0⟩, ⟨⟨2, ![R, n]⟩, x1⟩, ⟨⟨2, ![R, n]⟩, x2⟩] h (ix2 p q) = x0 (ix2 p q') :=
  concatenate_apply_piece (t := ⟨2, ![R, N]⟩) 1 [⟨⟨2, ![R, n]⟩, x0⟩, ⟨⟨2, ![R, n]⟩, x1⟩, ⟨⟨2, ![R, n]⟩, x2⟩] h (ix2 p q) 0 (by show 0 < 3; omega) _ x0 rfl rfl 0 rfl (ix2 p q')
    (fun b => match b with
      | ⟨0, _⟩ => fun _ => rfl
      | ⟨1, _⟩ => fun hb => absurd rfl hb)
    (by show 0 + q'.val = q.val; omega)

/-- Side by side: a column in the second block. -/
theorem hcat3_1 {R n N : Nat} (x0 x1 x2 : (⟨2, ![R, n]⟩ : Shape).Idx → α)
    (h : Shape.Concatenates [(⟨2, ![R, n]⟩ : Shape), ⟨2, ![R, n]⟩, ⟨2, ![R, n]⟩] ⟨2, ![R, N]⟩ 1)
    (p : Fin R) (q : Fin N) (q' : Fin n) (hq : n + q'.val = q.val) :
    concatenate ⟨2, ![R, N]⟩ 1 [⟨⟨2, ![R, n]⟩, x0⟩, ⟨⟨2, ![R, n]⟩, x1⟩, ⟨⟨2, ![R, n]⟩, x2⟩] h (ix2 p q) = x1 (ix2 p q') :=
  concatenate_apply_piece (t := ⟨2, ![R, N]⟩) 1 [⟨⟨2, ![R, n]⟩, x0⟩, ⟨⟨2, ![R, n]⟩, x1⟩, ⟨⟨2, ![R, n]⟩, x2⟩] h (ix2 p q) 1 (by show 1 < 3; omega) _ x1 rfl rfl n rfl (ix2 p q')
    (fun b => match b with
      | ⟨0, _⟩ => fun _ => rfl
      | ⟨1, _⟩ => fun hb => absurd rfl hb)
    hq

/-- Side by side: a column in the third block. -/
theorem hcat3_2 {R n N : Nat} (x0 x1 x2 : (⟨2, ![R, n]⟩ : Shape).Idx → α)
    (h : Shape.Concatenates [(⟨2, ![R, n]⟩ : Shape), ⟨2, ![R, n]⟩, ⟨2, ![R, n]⟩] ⟨2, ![R, N]⟩ 1)
    (p : Fin R) (q : Fin N) (q' : Fin n) (hq : n + n + q'.val = q.val) :
    concatenate ⟨2, ![R, N]⟩ 1 [⟨⟨2, ![R, n]⟩, x0⟩, ⟨⟨2, ![R, n]⟩, x1⟩, ⟨⟨2, ![R, n]⟩, x2⟩] h (ix2 p q) = x2 (ix2 p q') :=
  concatenate_apply_piece (t := ⟨2, ![R, N]⟩) 1 [⟨⟨2, ![R, n]⟩, x0⟩, ⟨⟨2, ![R, n]⟩, x1⟩, ⟨⟨2, ![R, n]⟩, x2⟩] h (ix2 p q) 2 (by show 2 < 3; omega) _ x2 rfl rfl (n + n) rfl (ix2 p q')
    (fun b => match b with
      | ⟨0, _⟩ => fun _ => rfl
      | ⟨1, _⟩ => fun hb => absurd rfl hb)
    hq

/-- One above the other: a row in the first block. -/
theorem vcat3_0 {n N C : Nat} (x0 x1 x2 : (⟨2, ![n, C]⟩ : Shape).Idx → α)
    (h : Shape.Concatenates [(⟨2, ![n, C]⟩ : Shape), ⟨2, ![n, C]⟩, ⟨2, ![n, C]⟩] ⟨2, ![N, C]⟩ 0)
    (p : Fin N) (q : Fin C) (p' : Fin n) (hp : p'.val = p.val) :
    concatenate ⟨2, ![N, C]⟩ 0 [⟨⟨2, ![n, C]⟩, x0⟩, ⟨⟨2, ![n, C]⟩, x1⟩, ⟨⟨2, ![n, C]⟩, x2⟩] h (ix2 p q) = x0 (ix2 p' q) :=
  concatenate_apply_piece (t := ⟨2, ![N, C]⟩) 0 [⟨⟨2, ![n, C]⟩, x0⟩, ⟨⟨2, ![n, C]⟩, x1⟩, ⟨⟨2, ![n, C]⟩, x2⟩] h (ix2 p q) 0 (by show 0 < 3; omega) _ x0 rfl rfl 0 rfl (ix2 p' q)
    (fun b => match b with
      | ⟨0, _⟩ => fun hb => absurd rfl hb
      | ⟨1, _⟩ => fun _ => rfl)
    (by show 0 + p'.val = p.val; omega)

/-- One above the other: a row in the second block. -/
theorem vcat3_1 {n N C : Nat} (x0 x1 x2 : (⟨2, ![n, C]⟩ : Shape).Idx → α)
    (h : Shape.Concatenates [(⟨2, ![n, C]⟩ : Shape), ⟨2, ![n, C]⟩, ⟨2, ![n, C]⟩] ⟨2, ![N, C]⟩ 0)
    (p : Fin N) (q : Fin C) (p' : Fin n) (hp : n + p'.val = p.val) :
    concatenate ⟨2, ![N, C]⟩ 0 [⟨⟨2, ![n, C]⟩, x0⟩, ⟨⟨2, ![n, C]⟩, x1⟩, ⟨⟨2, ![n, C]⟩, x2⟩] h (ix2 p q) = x1 (ix2 p' q) :=
  concatenate_apply_piece (t := ⟨2, ![N, C]⟩) 0 [⟨⟨2, ![n, C]⟩, x0⟩, ⟨⟨2, ![n, C]⟩, x1⟩, ⟨⟨2, ![n, C]⟩, x2⟩] h (ix2 p q) 1 (by show 1 < 3; omega) _ x1 rfl rfl n rfl (ix2 p' q)
    (fun b => match b with
      | ⟨0, _⟩ => fun hb => absurd rfl hb
      | ⟨1, _⟩ => fun _ => rfl)
    hp

/-- One above the other: a row in the third block. -/
theorem vcat3_2 {n N C : Nat} (x0 x1 x2 : (⟨2, ![n, C]⟩ : Shape).Idx → α)
    (h : Shape.Concatenates [(⟨2, ![n, C]⟩ : Shape), ⟨2, ![n, C]⟩, ⟨2, ![n, C]⟩] ⟨2, ![N, C]⟩ 0)
    (p : Fin N) (q : Fin C) (p' : Fin n) (hp : n + n + p'.val = p.val) :
    concatenate ⟨2, ![N, C]⟩ 0 [⟨⟨2, ![n, C]⟩, x0⟩, ⟨⟨2, ![n, C]⟩, x1⟩, ⟨⟨2, ![n, C]⟩, x2⟩] h (ix2 p q) = x2 (ix2 p' q) :=
  concatenate_apply_piece (t := ⟨2, ![N, C]⟩) 0 [⟨⟨2, ![n, C]⟩, x0⟩, ⟨⟨2, ![n, C]⟩, x1⟩, ⟨⟨2, ![n, C]⟩, x2⟩] h (ix2 p q) 2 (by show 2 < 3; omega) _ x2 rfl rfl (n + n) rfl (ix2 p' q)
    (fun b => match b with
      | ⟨0, _⟩ => fun hb => absurd rfl hb
      | ⟨1, _⟩ => fun _ => rfl)
    hp

end Blocks

/-! ## The pieces of the folded weight at an index -/

/-- The zero block is zero everywhere: the broadcast of the constant whose bits are zero. -/
theorem zeroT_apply (i : S16x768.Idx) : zeroT i = 0 := by
  unfold zeroT
  refine (broadcastInDim_apply _ bcast_S_S16x768 _ i ix0 (fun a => a.elim0)).trans ?_
  exact Ideal.ofBits_zero_f32

/-- A_full at (k, l): the a of l's third, at row l inside the third and column k. -/
theorem aFullT_apply (aq ak av : S16x768.Idx → EReal) (k : Fin 768) (l : Fin 48) :
    aFullT aq ak av (ix2 k l) = Cert.Lora.aFull aq ak av k l := by
  unfold aFullT Cert.Lora.aFull
  by_cases h0 : l.val < 16
  · rw [dif_pos h0]
    refine (hcat3_0 _ _ _ _ k l (⟨l.val, h0⟩ : Fin 16) rfl).trans ?_
    exact transpose_ix2_apply aq _ k (⟨l.val, h0⟩ : Fin 16)
  · rw [dif_neg h0]
    by_cases h1 : l.val < 32
    · rw [dif_pos h1]
      refine (hcat3_1 _ _ _ _ k l (⟨l.val - 16, by omega⟩ : Fin 16) (by show 16 + (l.val - 16) = l.val; omega)).trans ?_
      exact transpose_ix2_apply ak _ k (⟨l.val - 16, by omega⟩ : Fin 16)
    · rw [dif_neg h1]
      have hl := l.isLt
      refine (hcat3_2 _ _ _ _ k l (⟨l.val - 32, by omega⟩ : Fin 16) (by show 16 + 16 + (l.val - 32) = l.val; omega)).trans ?_
      exact transpose_ix2_apply av _ k (⟨l.val - 32, by omega⟩ : Fin 16)

/-- One row block of B_full at (r, j): the block of j's third, at the column inside the third. -/
theorem rowT_apply (p0 p1 p2 : S16x768.Idx → EReal) (r : Fin 16) (j : Fin 2304) :
    rowT p0 p1 p2 (ix2 r j)
      = if h0 : j.val < 768 then p0 (ix2 r (⟨j.val, h0⟩ : Fin 768))
        else if h1 : j.val < 1536 then p1 (ix2 r (⟨j.val - 768, by omega⟩ : Fin 768))
        else p2 (ix2 r (⟨j.val - 1536, by have := j.isLt; omega⟩ : Fin 768)) := by
  unfold rowT
  by_cases h0 : j.val < 768
  · rw [dif_pos h0]
    exact hcat3_0 _ _ _ _ r j (⟨j.val, h0⟩ : Fin 768) rfl
  · rw [dif_neg h0]
    by_cases h1 : j.val < 1536
    · rw [dif_pos h1]
      exact hcat3_1 _ _ _ _ r j (⟨j.val - 768, by omega⟩ : Fin 768) (by show 768 + (j.val - 768) = j.val; omega)
    · rw [dif_neg h1]
      have hj := j.isLt
      exact hcat3_2 _ _ _ _ r j (⟨j.val - 1536, by omega⟩ : Fin 768) (by show 768 + 768 + (j.val - 1536) = j.val; omega)

/-- B_full at (l, j): block diagonal, the b of l's third at (column inside the third, row inside the third) when j is
    in the same third, zero otherwise. -/
theorem bFullT_apply (bq bk bv : S768x16.Idx → EReal) (l : Fin 48) (j : Fin 2304) :
    bFullT bq bk bv (ix2 l j) = Cert.Lora.bFull bq bk bv l j := by
  unfold bFullT Cert.Lora.bFull
  have hj := j.isLt
  by_cases hl : l.val < 16
  · rw [dif_pos hl]
    refine (vcat3_0 _ _ _ _ l j (⟨l.val, hl⟩ : Fin 16) rfl).trans ?_
    rw [rowT_apply]
    by_cases h0 : j.val < 768
    · rw [dif_pos h0, dif_pos h0]
      exact transpose_ix2_apply bq _ (⟨l.val, hl⟩ : Fin 16) (⟨j.val, h0⟩ : Fin 768)
    · rw [dif_neg h0, dif_neg h0]
      by_cases h1 : j.val < 1536
      · rw [dif_pos h1]; exact zeroT_apply _
      · rw [dif_neg h1]; exact zeroT_apply _
  · rw [dif_neg hl]
    by_cases hl' : l.val < 32
    · rw [dif_pos hl']
      refine (vcat3_1 _ _ _ _ l j (⟨l.val - 16, by omega⟩ : Fin 16) (by show 16 + (l.val - 16) = l.val; omega)).trans ?_
      rw [rowT_apply]
      by_cases h0 : j.val < 768
      · rw [dif_pos h0, dif_neg (by omega)]; exact zeroT_apply _
      · rw [dif_neg h0]
        by_cases h1 : j.val < 1536
        · rw [dif_pos h1, dif_pos ⟨by omega, h1⟩]
          exact transpose_ix2_apply bk _ (⟨l.val - 16, by omega⟩ : Fin 16) (⟨j.val - 768, by omega⟩ : Fin 768)
        · rw [dif_neg h1, dif_neg (by omega)]; exact zeroT_apply _
    · rw [dif_neg hl']
      have hl2 := l.isLt
      refine (vcat3_2 _ _ _ _ l j (⟨l.val - 32, by omega⟩ : Fin 16) (by show 16 + 16 + (l.val - 32) = l.val; omega)).trans ?_
      rw [rowT_apply]
      by_cases h0 : j.val < 768
      · rw [dif_pos h0, dif_neg (by omega)]; exact zeroT_apply _
      · rw [dif_neg h0]
        by_cases h1 : j.val < 1536
        · rw [dif_pos h1, dif_neg (by omega)]; exact zeroT_apply _
        · rw [dif_neg h1, dif_pos (by omega)]
          exact transpose_ix2_apply bv _ (⟨l.val - 32, by omega⟩ : Fin 16) (⟨j.val - 1536, by omega⟩ : Fin 768)

end Cert.KernelIdeal.HostPrefix

end
-- ==== Proof.HostPrefix.lean ====
import proofs.«135189_j63608465654579_2_alg».proof.Proof.HostPrefixTerms
import proofs.«135189_j63608465654579_2_alg».proof.Proof.HostPrefixCat
import Idealize.ShloMosaic.Lib.KernelVsHost

set_option maxRecDepth 16384

noncomputable section

open scoped BigOperators

namespace Cert.KernelIdeal.HostPrefix

open Cert.KernelIdeal Cert.KernelIdeal.Gen Cert.KernelIdeal.Hand
open Idealize.ShloMosaic Idealize.ShloMosaic.ValueIdx Idealize.ShloMosaic.TcCoe Idealize.SL.Sem

variable (m : (ℓ : Loc nD τ sig) → Buf (Elt Ideal) ℓ) (c : Dev nD)

/-! ## The bias row -/

/-- The bias row at (u, j) is the bias at j. -/
theorem V_v3 (u : Fin 1) (j : Fin 2304) :
    (V m c main_v3 : S1x2304.Idx → EReal) (ix2 u j) = (m ((c : Thread nD τ).loc main_arg2) : S2304.Idx → EReal) (ix1 j) := by
  rw [V_v3_eq]
  exact shapeCast_a_1a_apply _ _ u j

/-! ## The padded x -/

/-- A row below 12608 of the padded array is row (r / 197, r % 197) of x: the pad reads inside its operand there, and
    the reshape keeps the row-major position, r = (r / 197) * 197 + r % 197. -/
theorem xPadT_apply (x : S64x197x768.Idx → EReal) (r : Fin 12800) (k : Fin 768) (hr : r.val < 12608) :
    xPadT x (ix2 r k)
      = x (ix3 (⟨r.val / 197, by omega⟩ : Fin 64) (⟨r.val % 197, Nat.mod_lt _ (by omega)⟩ : Fin 197) k) := by
  unfold xPadT
  refine (pad_apply_of_inside _ _ _ _ _ _ _ (ix2 r k) (ix2 (⟨r.val, hr⟩ : Fin 12608) k) ?_).trans ?_
  · intro a
    match a with
    | ⟨0, _⟩ => show r.val = 0 + r.val * (0 + 1); omega
    | ⟨1, _⟩ => show k.val = 0 + k.val * (0 + 1); omega
  · refine shapeCast_apply x _ _ _ ?_
    rw [Shape.rowMajor_val_three, Shape.rowMajor_val_two]
    show (r.val / 197 * 197 + r.val % 197) * 768 + k.val = r.val * 768 + k.val
    rw [Nat.div_add_mod' r.val 197]

/-- The padded x at a row below 12608. -/
theorem V_v1 (r : Fin 12800) (k : Fin 768) (hr : r.val < 12608) :
    (V m c main_v1 : S12800x768.Idx → EReal) (ix2 r k)
      = (m ((c : Thread nD τ).loc main_arg0) : S64x197x768.Idx → EReal)
          (ix3 (⟨r.val / 197, by omega⟩ : Fin 64) (⟨r.val % 197, Nat.mod_lt _ (by omega)⟩ : Fin 197) k) := by
  rw [V_v1_eq]
  exact xPadT_apply _ r k hr

/-! ## The folded weight -/

/-- The left operand's index of the product at output index i and contraction position q: row i 0 ... -/
theorem dot_lhs_0 (i : S768x2304.Idx) (q : dot_S768x48_S48x2304_S768x2304_1_0_0_1_n_n.contr.Idx) :
    (dot_S768x48_S48x2304_S768x2304_1_0_0_1_n_n.lhsIdx i q 0).val = (i 0).val := by
  unfold DotDims.lhsIdx
  rw [dif_neg (show ¬(0 : Fin S768x48.rank) ∈ dot_S768x48_S48x2304_S768x2304_1_0_0_1_n_n.lhsBatch by decide), dif_pos (show (0 : Fin S768x48.rank) ∈ dot_S768x48_S48x2304_S768x2304_1_0_0_1_n_n.lhsNonContracting by decide)]
  rfl
/-- ... and column q. -/
theorem dot_lhs_1 (i : S768x2304.Idx) (q : dot_S768x48_S48x2304_S768x2304_1_0_0_1_n_n.contr.Idx) :
    (dot_S768x48_S48x2304_S768x2304_1_0_0_1_n_n.lhsIdx i q 1).val = (q ⟨0, by decide⟩).val :=
  dot_S768x48_S48x2304_S768x2304_1_0_0_1_n_n.lhsIdx_val_of_single rfl i q
/-- The right operand's index: row q ... -/
theorem dot_rhs_0 (i : S768x2304.Idx) (q : dot_S768x48_S48x2304_S768x2304_1_0_0_1_n_n.contr.Idx) :
    (dot_S768x48_S48x2304_S768x2304_1_0_0_1_n_n.rhsIdx i q 0).val = (q ⟨0, by decide⟩).val :=
  dot_S768x48_S48x2304_S768x2304_1_0_0_1_n_n.rhsIdx_val_of_single rfl i q
/-- ... and column i 1. -/
theorem dot_rhs_1 (i : S768x2304.Idx) (q : dot_S768x48_S48x2304_S768x2304_1_0_0_1_n_n.contr.Idx) :
    (dot_S768x48_S48x2304_S768x2304_1_0_0_1_n_n.rhsIdx i q 1).val = (i 1).val := by
  unfold DotDims.rhsIdx
  rw [dif_neg (show ¬(1 : Fin S48x2304.rank) ∈ dot_S768x48_S48x2304_S768x2304_1_0_0_1_n_n.rhsBatch by decide), dif_pos (show (1 : Fin S48x2304.rank) ∈ dot_S768x48_S48x2304_S768x2304_1_0_0_1_n_n.rhsNonContracting by decide)]
  rfl

/-- The [768, 48] by [48, 2304] product at (k, j): the sum over the 48 contracted coordinates. -/
theorem dotT_apply (A : S768x48.Idx → EReal) (B : S48x2304.Idx → EReal) (k : Fin 768) (j : Fin 2304) :
    Host.dotGeneral (F := Ideal) (φ₁ := .f32) (φ₂ := .f32) dot_S768x48_S48x2304_S768x2304_1_0_0_1_n_n none A B (ix2 k j)
      = ∑ l : Fin 48, A (ix2 k l) * B (ix2 l j) := by
  simp only [Host.dotGeneral]
  rw [Ideal.dotGeneral_apply, ← Equiv.sum_comp (ValueIdx.contrEquiv1 dot_S768x48_S48x2304_S768x2304_1_0_0_1_n_n 48 rfl rfl).symm]
  refine Finset.sum_congr rfl fun l _ => ?_
  have hl := ValueIdx.contrEquiv1_symm_val dot_S768x48_S48x2304_S768x2304_1_0_0_1_n_n 48 rfl rfl l
  have el : dot_S768x48_S48x2304_S768x2304_1_0_0_1_n_n.lhsIdx (ix2 k j) ((ValueIdx.contrEquiv1 dot_S768x48_S48x2304_S768x2304_1_0_0_1_n_n 48 rfl rfl).symm l) = ix2 k l := funext fun a => Fin.ext (by
    match a with
    | ⟨0, _⟩ => exact dot_lhs_0 _ _
    | ⟨1, _⟩ => exact (dot_lhs_1 _ _).trans hl)
  have er : dot_S768x48_S48x2304_S768x2304_1_0_0_1_n_n.rhsIdx (ix2 k j) ((ValueIdx.contrEquiv1 dot_S768x48_S48x2304_S768x2304_1_0_0_1_n_n 48 rfl rfl).symm l) = ix2 l j := funext fun a => Fin.ext (by
    match a with
    | ⟨0, _⟩ => exact (dot_rhs_0 _ _).trans hl
    | ⟨1, _⟩ => exact dot_rhs_1 _ _)
  rw [el, er]

/-- The folded weight's term at (k, j) is w_eff k j: the conversion is the identity on the extended reals, the sum of
    two arrays is the sum entry by entry, the transpose swaps the coordinates, and the product is the sum over the 48
    contracted coordinates of A_full times B_full. -/
theorem wEffT_apply (w : S2304x768.Idx → EReal) (aq : S16x768.Idx → EReal) (bq : S768x16.Idx → EReal) (ak : S16x768.Idx → EReal)
    (bk : S768x16.Idx → EReal) (av : S16x768.Idx → EReal) (bv : S768x16.Idx → EReal) (k : Fin 768) (j : Fin 2304) :
    wEffT w aq bq ak bk av bv (ix2 k j) = Cert.Lora.wEff w aq bq ak bk av bv k j := by
  unfold wEffT Cert.Lora.wEff
  rw [truncf_apply, addf_apply, dotT_apply, transpose_ix2_apply]
  refine congrArg _ (Finset.sum_congr rfl fun l _ => ?_)
  rw [aFullT_apply, bFullT_apply]

/-- The folded weight as the region finds it, at (k, j). -/
theorem V_v18 (k : Fin 768) (j : Fin 2304) :
    (V m c main_v18 : S768x2304.Idx → EReal) (ix2 k j)
      = Cert.Lora.wEff (m ((c : Thread nD τ).loc main_arg1)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) k j := by
  rw [V_v18_eq]
  exact wEffT_apply _ _ _ _ _ _ _ k j

end Cert.KernelIdeal.HostPrefix

end
-- ==== Proof.KernelResult.lean ====
/-
  The kernel's result, element by element, as a function of the launch arrays.

  Element (bb, n, j) of the result is the output array at row r = 197 bb + n, which is
  sum_k xpad (r, k) * weff (k, j) + brow (0, j). Row r is below 12608, so xpad (r, k) is x at (r / 197, r % 197, k)
  = x (bb, n, k); weff is the folded weight of the launch arrays; brow (0, j) is the bias at j. That is `kerAt`.
-/
import proofs.«135189_j63608465654579_2_alg».proof.Proof.KernelTail
import proofs.«135189_j63608465654579_2_alg».proof.Proof.HostPrefix
import proofs.«135189_j63608465654579_2_alg».proof.Proof.Spec

set_option maxRecDepth 16384

noncomputable section

open scoped BigOperators

namespace Cert.KernelIdeal.KernelResult

open Cert.KernelIdeal Cert.KernelIdeal.Gen Cert.KernelIdeal.Hand Cert.KernelIdeal.KernelValue Cert.KernelIdeal.KernelTail
open Cert.KernelIdeal.HostPrefix
open Idealize.ShloMosaic Idealize.ShloMosaic.TcCoe Idealize.ShloMosaic.ValueIdx
open Idealize.SL Idealize.SL.Sem

variable (m : (ℓ : Loc nD τ sig) → Buf (Elt Ideal) ℓ)

/-- Row 197 bb + n splits back into (bb, n). -/
theorem row_split (bb : Fin 64) (n : Fin 197) :
    (bb.val * 197 + n.val) / 197 = bb.val ∧ (bb.val * 197 + n.val) % 197 = n.val := by
  have := n.isLt
  constructor
  · omega
  · omega

theorem result_at (c : Dev nD) (bb : Fin 64) (n : Fin 197) (j : Fin 2304) :
    (Pipeline.afterTail₀ cfgs (dats m) 0 (V0 m) [hostOps1] c main_v21 : Vec Ideal S64x197x2304 .f32) (ix3 bb n j)
      = Cert.Lora.kerAt (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) bb n j := by
  rw [tail_at]
  unfold Gout Cert.Lora.kerAt
  have hr : bb.val * 197 + n.val < 12608 := row_lt bb n
  obtain ⟨hd, hm⟩ := row_split bb n
  refine congrArg₂ (· + ·) (Finset.sum_congr rfl fun k _ => ?_) (V_v3 m c (0 : Fin 1) j)
  refine congrArg₂ (· * ·) ?_ (V_v18 m c k j)
  refine (V_v1 m c (⟨bb.val * 197 + n.val, by omega⟩ : Fin 12800) k hr).trans ?_
  refine congrArg _ ?_
  funext a
  match a with
  | ⟨0, _⟩ => exact Fin.ext hd
  | ⟨1, _⟩ => exact Fin.ext hm
  | ⟨2, _⟩ => rfl

end Cert.KernelIdeal.KernelResult

end
-- ==== Proof.RefValue.lean ====
/-
  The reference's value at one index, in the mathematics of Spec.lean.

  The reference is twelve operations: the product x * w^T, the bias broadcast over rows and added, three low-rank
  paths (x * a^T) * b^T, their concatenation along the column axis, and the sum of the two. Read at the index
  (bb, n, j): the first product is a sum over the 768 inner positions, the broadcast bias is bias j, and the
  concatenation is the piece whose 768-column span holds j, read at the column inside the span; each piece is a sum over
  the 16 rank positions of a sum over the 768 inner positions.
-/
import proofs.«135189_j63608465654579_2_alg».proof.Proof.Gen.ReferenceIdeal.Read
import proofs.«135189_j63608465654579_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-- One low-rank path at (bb, n, c): the sum over the rank position r of (the sum over k of x k * a r k) * b c r. -/
theorem path_apply (x0 : (⟨S64x197x768, .f32⟩ : BufTy).Contents (Elt Ideal)) (a : (⟨S16x768, .f32⟩ : BufTy).Contents (Elt Ideal))
    (b : (⟨S768x16, .f32⟩ : BufTy).Contents (Elt Ideal)) (bb : Fin 64) (n : Fin 197) (c : Fin 768) :
    val_main_v5 (F := Ideal) x0 a b (ix3 bb n c) = Cert.Lora.path (fun k => x0 (ix3 bb n k)) a b c := by
  rw [val_main_v5_apply]
  unfold Cert.Lora.path
  refine Finset.sum_congr rfl fun r _ => ?_
  have e1 : lidx_main_v5 (ix3 bb n c) r = ix3 bb n r :=
    funext fun d => by match d with | ⟨0, _⟩ => rfl | ⟨1, _⟩ => rfl | ⟨2, _⟩ => rfl
  have e2 : ridx_main_v5 (ix3 bb n c) r = ix2 c r :=
    funext fun d => by match d with | ⟨0, _⟩ => rfl | ⟨1, _⟩ => rfl
  rw [e1, e2, val_main_v4_apply]
  congr 1
  refine Finset.sum_congr rfl fun k _ => ?_
  have e3 : lidx_main_v4 (ix3 bb n r) k = ix3 bb n k :=
    funext fun d => by match d with | ⟨0, _⟩ => rfl | ⟨1, _⟩ => rfl | ⟨2, _⟩ => rfl
  have e4 : ridx_main_v4 (ix3 bb n r) k = ix2 r k :=
    funext fun d => by match d with | ⟨0, _⟩ => rfl | ⟨1, _⟩ => rfl
  rw [e3, e4]

/-- The second path's stage is the first's at the second pair, and the third's at the third pair. -/
theorem path_apply7 (x0 : (⟨S64x197x768, .f32⟩ : BufTy).Contents (Elt Ideal)) (a : (⟨S16x768, .f32⟩ : BufTy).Contents (Elt Ideal))
    (b : (⟨S768x16, .f32⟩ : BufTy).Contents (Elt Ideal)) (bb : Fin 64) (n : Fin 197) (c : Fin 768) :
    val_main_v7 (F := Ideal) x0 a b (ix3 bb n c) = Cert.Lora.path (fun k => x0 (ix3 bb n k)) a b c :=
  path_apply x0 a b bb n c

theorem path_apply9 (x0 : (⟨S64x197x768, .f32⟩ : BufTy).Contents (Elt Ideal)) (a : (⟨S16x768, .f32⟩ : BufTy).Contents (Elt Ideal))
    (b : (⟨S768x16, .f32⟩ : BufTy).Contents (Elt Ideal)) (bb : Fin 64) (n : Fin 197) (c : Fin 768) :
    val_main_v9 (F := Ideal) x0 a b (ix3 bb n c) = Cert.Lora.path (fun k => x0 (ix3 bb n k)) a b c :=
  path_apply x0 a b bb n c

/-- The concatenation of the three paths along the column axis, read at (bb, n, j): the path of j's third, at the
    column inside the third. -/
theorem concat_apply (x0 : (⟨S64x197x768, .f32⟩ : BufTy).Contents (Elt Ideal))
    (x3 : (⟨S16x768, .f32⟩ : BufTy).Contents (Elt Ideal)) (x4 : (⟨S768x16, .f32⟩ : BufTy).Contents (Elt Ideal))
    (x5 : (⟨S16x768, .f32⟩ : BufTy).Contents (Elt Ideal)) (x6 : (⟨S768x16, .f32⟩ : BufTy).Contents (Elt Ideal))
    (x7 : (⟨S16x768, .f32⟩ : BufTy).Contents (Elt Ideal)) (x8 : (⟨S768x16, .f32⟩ : BufTy).Contents (Elt Ideal))
    (bb : Fin 64) (n : Fin 197) (j : Fin 2304) :
    val_main_v10 (F := Ideal) x0 x3 x4 x5 x6 x7 x8 (ix3 bb n j)
      = Cert.Lora.lora (fun k => x0 (ix3 bb n k)) x3 x4 x5 x6 x7 x8 j := by
  unfold Cert.Lora.lora val_main_v10
  have hj : j.val < 2304 := j.isLt
  by_cases h : j.val < 768
  · rw [dif_pos h, ← path_apply]
    refine concatenate_apply_piece (2 : Fin S64x197x2304.rank) _ _ (ix3 bb n j) 0 ?_ S64x197x768
      (val_main_v5 (F := Ideal) x0 x3 x4) rfl rfl 0 rfl (ix3 bb n ⟨j.val, h⟩) (fun d hd => ?_) ?_
    · show (_ : Nat) < 3
      omega
    · match d with
      | ⟨0, _⟩ => rfl
      | ⟨1, _⟩ => rfl
      | ⟨2, _⟩ => exact (hd rfl).elim
    · show 0 + j.val = j.val
      omega
  · rw [dif_neg h]
    by_cases h' : j.val < 1536
    · rw [dif_pos h', ← path_apply7]
      refine concatenate_apply_piece (2 : Fin S64x197x2304.rank) _ _ (ix3 bb n j) 1 ?_ S64x197x768
        (val_main_v7 (F := Ideal) x0 x5 x6) rfl rfl 768 rfl (ix3 bb n ⟨j.val - 768, by omega⟩) (fun d hd => ?_) ?_
      · show (_ : Nat) < 3
        omega
      · match d with
        | ⟨0, _⟩ => rfl
        | ⟨1, _⟩ => rfl
        | ⟨2, _⟩ => exact (hd rfl).elim
      · show 768 + (j.val - 768) = j.val
        omega
    · rw [dif_neg h', ← path_apply9]
      refine concatenate_apply_piece (2 : Fin S64x197x2304.rank) _ _ (ix3 bb n j) 2 ?_ S64x197x768
        (val_main_v9 (F := Ideal) x0 x7 x8) rfl rfl 1536 rfl (ix3 bb n ⟨j.val - 1536, by omega⟩) (fun d hd => ?_) ?_
      · show (_ : Nat) < 3
        omega
      · match d with
        | ⟨0, _⟩ => rfl
        | ⟨1, _⟩ => rfl
        | ⟨2, _⟩ => exact (hd rfl).elim
      · show 1536 + (j.val - 1536) = j.val
        omega

/-- **The reference at (bb, n, j)** is `refAt`: the product row, plus the bias at j, plus the low-rank term of j. -/
theorem ref_apply (x0 : (⟨S64x197x768, .f32⟩ : BufTy).Contents (Elt Ideal)) (x1 : (⟨S2304x768, .f32⟩ : BufTy).Contents (Elt Ideal))
    (x2 : (⟨S2304, .f32⟩ : BufTy).Contents (Elt Ideal))
    (x3 : (⟨S16x768, .f32⟩ : BufTy).Contents (Elt Ideal)) (x4 : (⟨S768x16, .f32⟩ : BufTy).Contents (Elt Ideal))
    (x5 : (⟨S16x768, .f32⟩ : BufTy).Contents (Elt Ideal)) (x6 : (⟨S768x16, .f32⟩ : BufTy).Contents (Elt Ideal))
    (x7 : (⟨S16x768, .f32⟩ : BufTy).Contents (Elt Ideal)) (x8 : (⟨S768x16, .f32⟩ : BufTy).Contents (Elt Ideal))
    (bb : Fin 64) (n : Fin 197) (j : Fin 2304) :
    Cert.ReferenceIdeal.Read.val_main_v11 (F := Ideal) x0 x1 x2 x3 x4 x5 x6 x7 x8 (ix3 bb n j)
      = Cert.Lora.refAt x0 x1 x2 x3 x4 x5 x6 x7 x8 bb n j := by
  rw [val_main_v11_apply, val_main_v3_apply, val_main_v0_apply, val_main_v2_apply, val_main_v1_apply, concat_apply]
  unfold Cert.Lora.refAt
  have eb : idx_main_v1 (idx_main_v2 (ix3 bb n j)) = ix1 j :=
    funext fun d => by match d with | ⟨0, _⟩ => rfl
  have es : (∑ k : Fin 768, x0 (lidx_main_v0 (ix3 bb n j) k) * x1 (ridx_main_v0 (ix3 bb n j) k))
      = ∑ k : Fin 768, x0 (ix3 bb n k) * x1 (ix2 j k) := by
    refine Finset.sum_congr rfl fun k _ => ?_
    have e1 : lidx_main_v0 (ix3 bb n j) k = ix3 bb n k :=
      funext fun d => by match d with | ⟨0, _⟩ => rfl | ⟨1, _⟩ => rfl | ⟨2, _⟩ => rfl
    have e2 : ridx_main_v0 (ix3 bb n j) k = ix2 j k :=
      funext fun d => by match d with | ⟨0, _⟩ => rfl | ⟨1, _⟩ => rfl
    rw [e1, e2]
  rw [eb, es]
  rfl

end Cert.ReferenceIdeal.RefValue

end
-- ==== Proof.Finite.lean ====
/-
  Finiteness from the precondition.

  The precondition is a printed predicate over the nine input arrays: for each array, the absolute value of every entry
  is compared (less than) against the +inf word broadcast from a scalar, the comparisons are reduced by "and" over every
  axis, and the nine results are joined by "and". On the extended reals the absolute value of x is max x (-x) and the
  +inf word is the top element, so an entry passes exactly when it is neither top nor bottom, that is, when it is a real
  number. One lemma states this for an array of any shape; the theorem splits the nine-fold conjunction and applies it
  to each array.
-/
import proofs.«135189_j63608465654579_2_alg».proof.Pre_finite_inputs
import proofs.«135189_j63608465654579_2_alg».proof.Proof.Gen.Pre_finite_inputs
import proofs.«135189_j63608465654579_2_alg».proof.Proof.Spec
import Idealize.ShloMosaic.Lib.ReduceAll
import Idealize.ShloMosaic.Lib.Pipeline.Value

noncomputable section

namespace Cert.Finite

open Idealize.ShloMosaic Cert.Pre_finite_inputs

/-- The scalar shape has one index. -/
local instance : Subsingleton S_.Idx := ⟨fun a b => funext fun d => d.elim0⟩

/-- An extended real whose absolute value is below +inf is a real number: top fails the comparison itself, and bottom
    fails it through its negation. -/
theorem real_of_abs_lt (x : EReal) (h : Ideal.cmp .olt (max x (-x)) (Ideal.ofBits .f32 0x7F800000#32) = 1#1) :
    ∃ r : ℝ, x = (r : EReal) := by
  simp [Ideal.cmp, Ideal.ofBits, Ideal.ieee] at h
  induction x using EReal.rec with
  | bot => simp at h
  | coe r => exact ⟨r, rfl⟩
  | top => simp at h

/-- An array of any shape whose "and" over every axis of (|x| < +inf) is 1 has only real entries: the reduction being 1
    gives the comparison at each index, the broadcast scalar read at that index is the +inf word, and the element fact
    above does the rest. -/
theorem allReal_of_all {S : Shape} {axes : List (Fin S.rank)} (x : FVec Ideal S .f32)
    (hb : S_.BroadcastsInDim S (![] : Fin 0 → Fin S.rank)) (hr : S.ReducesTo axes S_) (hu : 0 < S_.numel)
    (init : IVec S_ 1) (j : S_.Idx)
    (e : Host.reduce IntOp.andi
        (cmpf .olt (Host.absf x) (broadcastInDim S ![] hb (constant (F := Ideal) S_ .f32 0x7F800000#32))) init hr hu j = 1#1) :
    Cert.Lora.AllReal x := by
  intro i
  have h1 := Host.reduce_andi_all _ init hr hu j e i
  refine real_of_abs_lt (x i) ?_
  rw [← h1]
  unfold cmpf Host.absf
  rw [broadcastInDim_apply _ hb _ i j (fun a => a.elim0)]
  rfl

/-- **Finiteness from the precondition.** The printed predicate is the conjunction, over the nine arrays, of "every entry's
    absolute value is below +inf"; where it holds, every entry of every array is a real number. -/
theorem of_pre [Cert.Pre_finite_inputs.Facts]
    (a0 : FVec Ideal Cert.Pre_finite_inputs.S64x197x768 .f32) (a1 : FVec Ideal Cert.Pre_finite_inputs.S2304x768 .f32)
    (a2 : FVec Ideal Cert.Pre_finite_inputs.S2304 .f32)
    (a3 : FVec Ideal Cert.Pre_finite_inputs.S16x768 .f32) (a4 : FVec Ideal Cert.Pre_finite_inputs.S768x16 .f32)
    (a5 : FVec Ideal Cert.Pre_finite_inputs.S16x768 .f32) (a6 : FVec Ideal Cert.Pre_finite_inputs.S768x16 .f32)
    (a7 : FVec Ideal Cert.Pre_finite_inputs.S16x768 .f32) (a8 : FVec Ideal Cert.Pre_finite_inputs.S768x16 .f32)
    (h : Cert.Pre_finite_inputs.fn (F := Ideal) a0 a1 a2 a3 a4 a5 a6 a7 a8 = fun _ => 1#1) :
    Cert.Lora.AllReal a0 ∧ Cert.Lora.AllReal a1 ∧ Cert.Lora.AllReal a2 ∧ Cert.Lora.AllReal a3 ∧ Cert.Lora.AllReal a4
      ∧ Cert.Lora.AllReal a5 ∧ Cert.Lora.AllReal a6 ∧ Cert.Lora.AllReal a7 ∧ Cert.Lora.AllReal a8 := by
  have h0 := congrFun h ValueIdx.ix0
  unfold Cert.Pre_finite_inputs.fn Cert.Pre_finite_inputs.fn_part1 Cert.Pre_finite_inputs.fn_part2 at h0
  dsimp only [andi] at h0
  simp only [IntOp.andi_eq_one] at h0
  obtain ⟨⟨⟨⟨⟨⟨⟨⟨e0, e1⟩, e2⟩, e3⟩, e4⟩, e5⟩, e6⟩, e7⟩, e8⟩ := h0
  exact ⟨allReal_of_all a0 _ _ _ _ _ e0, allReal_of_all a1 _ _ _ _ _ e1, allReal_of_all a2 _ _ _ _ _ e2,
    allReal_of_all a3 _ _ _ _ _ e3, allReal_of_all a4 _ _ _ _ _ e4, allReal_of_all a5 _ _ _ _ _ e5,
    allReal_of_all a6 _ _ _ _ _ e6, allReal_of_all a7 _ _ _ _ _ e7, allReal_of_all a8 _ _ _ _ _ e8⟩

end Cert.Finite

end
-- ==== Proof.Algebra.lean ====
/-
  The law that joins the two programs: folding the low-rank paths into the weight changes nothing when every
  entry is a real number.

  Over the reals,  sum_k x k * (w k + sum_l A k l * B l) = sum_k x k * w k + sum_l (sum_k x k * A k l) * B l
  (the product distributes over the sum, and the two finite sums are exchanged). The 48 values of l are three
  runs of 16; B_full is block diagonal, so for an output column in the q third only the first run survives, and
  it is the q path; likewise for k and v. On the extended reals the same law fails at infinities (x * (a + b)
  with a = +inf, b = -inf), which is why every array is first shown to be real-valued: each function of the
  specification is then the coercion of the same function over the reals.
-/
import proofs.«135189_j63608465654579_2_alg».proof.Proof.Spec

noncomputable section

open scoped BigOperators

namespace Cert.Lora

open Idealize.ShloMosaic Idealize.ShloMosaic.ValueIdx

/-- The coercion of a finite real sum is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The specification over the reals -/

def pathR (xrow : Fin 768 → ℝ) (a : SA.Idx → ℝ) (b : SLb.Idx → ℝ) (c : Fin 768) : ℝ :=
  ∑ r : Fin 16, (∑ k : Fin 768, xrow k * a (ix2 r k)) * b (ix2 c r)

def loraR (xrow : Fin 768 → ℝ) (aq : SA.Idx → ℝ) (bq : SLb.Idx → ℝ) (ak : SA.Idx → ℝ) (bk : SLb.Idx → ℝ)
    (av : SA.Idx → ℝ) (bv : SLb.Idx → ℝ) (j : Fin 2304) : ℝ :=
  if h : j.val < 768 then pathR xrow aq bq ⟨j.val, h⟩
  else if h' : j.val < 1536 then pathR xrow ak bk ⟨j.val - 768, by omega⟩
  else pathR xrow av bv ⟨j.val - 1536, by omega⟩

def aFullR (aq ak av : SA.Idx → ℝ) (k : Fin 768) (l : Fin 48) : ℝ :=
  if h : l.val < 16 then aq (ix2 ⟨l.val, h⟩ k)
  else if h' : l.val < 32 then ak (ix2 ⟨l.val - 16, by omega⟩ k)
  else av (ix2 ⟨l.val - 32, by omega⟩ k)

def bFullR (bq bk bv : SLb.Idx → ℝ) (l : Fin 48) (j : Fin 2304) : ℝ :=
  if hl : l.val < 16 then
    (if hj : j.val < 768 then bq (ix2 ⟨j.val, hj⟩ ⟨l.val, hl⟩) else 0)
  else if hl' : l.val < 32 then
    (if hj : 768 ≤ j.val ∧ j.val < 1536 then bk (ix2 ⟨j.val - 768, by omega⟩ ⟨l.val - 16, by omega⟩) else 0)
  else
    (if hj : 1536 ≤ j.val then bv (ix2 ⟨j.val - 1536, by omega⟩ ⟨l.val - 32, by omega⟩) else 0)

/-! ## Each function of the specification at real-valued arrays is a coercion -/

variable (X : SX.Idx → ℝ) (W : SW.Idx → ℝ) (Bi : SBias.Idx → ℝ)
  (AQ : SA.Idx → ℝ) (BQ : SLb.Idx → ℝ) (AK : SA.Idx → ℝ) (BK : SLb.Idx → ℝ) (AV : SA.Idx → ℝ) (BV : SLb.Idx → ℝ)

theorem path_coe (xrow : Fin 768 → ℝ) (a : SA.Idx → ℝ) (b : SLb.Idx → ℝ) (c : Fin 768) :
    path (fun k => (xrow k : EReal)) (fun i => (a i : EReal)) (fun i => (b i : EReal)) c = ((pathR xrow a b c : ℝ) : EReal) := by
  unfold path pathR
  simp only [← EReal.coe_mul, ← coe_sum]

theorem lora_coe (xrow : Fin 768 → ℝ) (j : Fin 2304) :
    lora (fun k => (xrow k : EReal)) (fun i => (AQ i : EReal)) (fun i => (BQ i : EReal)) (fun i => (AK i : EReal))
      (fun i => (BK i : EReal)) (fun i => (AV i : EReal)) (fun i => (BV i : EReal)) j
      = ((loraR xrow AQ BQ AK BK AV BV j : ℝ) : EReal) := by
  unfold lora loraR
  split_ifs <;> exact path_coe _ _ _ _

theorem aFull_coe (k : Fin 768) (l : Fin 48) :
    aFull (fun i => (AQ i : EReal)) (fun i => (AK i : EReal)) (fun i => (AV i : EReal)) k l = ((aFullR AQ AK AV k l : ℝ) : EReal) := by
  unfold aFull aFullR
  split_ifs <;> rfl

theorem bFull_coe (l : Fin 48) (j : Fin 2304) :
    bFull (fun i => (BQ i : EReal)) (fun i => (BK i : EReal)) (fun i => (BV i : EReal)) l j = ((bFullR BQ BK BV l j : ℝ) : EReal) := by
  unfold bFull bFullR
  split_ifs <;> first | rfl | exact EReal.coe_zero.symm

/-! ## The law over the reals -/

/-- The product distributes over the folded weight, and the sums are exchanged. -/
theorem fold_real (x wj : Fin 768 → ℝ) (A : Fin 768 → Fin 48 → ℝ) (Bj : Fin 48 → ℝ) :
    ∑ k, x k * (wj k + ∑ l, A k l * Bj l) = ∑ k, x k * wj k + ∑ l, (∑ k, x k * A k l) * Bj l := by
  simp only [mul_add, Finset.sum_add_distrib, Finset.mul_sum, Finset.sum_mul]
  congr 1
  rw [Finset.sum_comm]
  exact Finset.sum_congr rfl fun l _ => Finset.sum_congr rfl fun k _ => by ring

/-- Forty-eight terms are three runs of sixteen. -/
theorem sum48 (g : Fin 48 → ℝ) :
    ∑ l, g l = ∑ r : Fin 16, g ⟨r.val, by omega⟩ + (∑ r : Fin 16, g ⟨r.val + 16, by omega⟩ + ∑ r : Fin 16, g ⟨r.val + 32, by omega⟩) := by
  have h1 := Fin.sum_univ_add (a := 16) (b := 32) (f := g)
  have h2 := Fin.sum_univ_add (a := 16) (b := 16) (f := fun i : Fin 32 => g (Fin.natAdd 16 i))
  rw [h1, h2]
  refine congrArg₂ (· + ·) (Finset.sum_congr rfl fun r _ => congrArg g (Fin.ext rfl)) (congrArg₂ (· + ·) ?_ ?_)
  · exact Finset.sum_congr rfl fun r _ => congrArg g (Fin.ext (by simp [Fin.natAdd, Fin.castAdd]; omega))
  · exact Finset.sum_congr rfl fun r _ => congrArg g (Fin.ext (by simp [Fin.natAdd]; omega))

/-- The block-diagonal product collapses to the one path of the column's third. -/
theorem blocks_real (xrow : Fin 768 → ℝ) (j : Fin 2304) :
    ∑ l : Fin 48, (∑ k, xrow k * aFullR AQ AK AV k l) * bFullR BQ BK BV l j = loraR xrow AQ BQ AK BK AV BV j := by
  rw [sum48]
  have hq : ∀ r : Fin 16, ((⟨r.val, by omega⟩ : Fin 48).val < 16) := fun r => r.isLt
  have hk1 : ∀ r : Fin 16, ¬ ((⟨r.val + 16, by omega⟩ : Fin 48).val < 16) := fun r => by show ¬ (r.val + 16 < 16); omega
  have hk2 : ∀ r : Fin 16, ((⟨r.val + 16, by omega⟩ : Fin 48).val < 32) := fun r => by have := r.isLt; show r.val + 16 < 32; omega
  have hv1 : ∀ r : Fin 16, ¬ ((⟨r.val + 32, by omega⟩ : Fin 48).val < 16) := fun r => by show ¬ (r.val + 32 < 16); omega
  have hv2 : ∀ r : Fin 16, ¬ ((⟨r.val + 32, by omega⟩ : Fin 48).val < 32) := fun r => by show ¬ (r.val + 32 < 32); omega
  unfold loraR pathR aFullR bFullR
  by_cases h1 : j.val < 768
  · have h2 : ¬ (768 ≤ j.val ∧ j.val < 1536) := by omega
    have h3 : ¬ (1536 ≤ j.val) := by omega
    simp only [dif_pos h1, dif_neg h2, dif_neg h3, hq, hk1, hk2, hv1, hv2, dite_true, dite_false, not_false_eq_true,
      mul_zero, Finset.sum_const_zero, add_zero]
  · by_cases h2 : j.val < 1536
    · have h2' : 768 ≤ j.val ∧ j.val < 1536 := ⟨by omega, h2⟩
      have h3 : ¬ (1536 ≤ j.val) := by omega
      simp only [dif_neg h1, dif_pos h2, dif_pos h2', dif_neg h3, hq, hk1, hk2, hv1, hv2, dite_true, dite_false, not_false_eq_true,
        mul_zero, Finset.sum_const_zero, add_zero, zero_add, Nat.add_sub_cancel]
    · have h2' : ¬ (768 ≤ j.val ∧ j.val < 1536) := by omega
      have h3 : 1536 ≤ j.val := by omega
      simp only [dif_neg h1, dif_neg h2, dif_neg h2', dif_pos h3, hq, hk1, hk2, hv1, hv2, dite_true, dite_false, not_false_eq_true,
        mul_zero, Finset.sum_const_zero, add_zero, zero_add, Nat.add_sub_cancel]

/-! ## The two programs agree on real-valued inputs -/

theorem kerAt_eq_refAt (x : SX.Idx → EReal) (w : SW.Idx → EReal) (bias : SBias.Idx → EReal) (aq : SA.Idx → EReal) (bq : SLb.Idx → EReal)
    (ak : SA.Idx → EReal) (bk : SLb.Idx → EReal) (av : SA.Idx → EReal) (bv : SLb.Idx → EReal)
    (hx : AllReal x) (hw : AllReal w) (hbias : AllReal bias) (haq : AllReal aq) (hbq : AllReal bq) (hak : AllReal ak) (hbk : AllReal bk)
    (hav : AllReal av) (hbv : AllReal bv) (bb : Fin 64) (n : Fin 197) (j : Fin 2304) :
    kerAt x w bias aq bq ak bk av bv bb n j = refAt x w bias aq bq ak bk av bv bb n j := by
  choose X hX using hx
  choose W hW using hw
  choose Bi hBi using hbias
  choose AQ hAQ using haq
  choose BQ hBQ using hbq
  choose AK hAK using hak
  choose BK hBK using hbk
  choose AV hAV using hav
  choose BV hBV using hbv
  obtain rfl : x = fun i => (X i : EReal) := funext hX
  obtain rfl : w = fun i => (W i : EReal) := funext hW
  obtain rfl : bias = fun i => (Bi i : EReal) := funext hBi
  obtain rfl : aq = fun i => (AQ i : EReal) := funext hAQ
  obtain rfl : bq = fun i => (BQ i : EReal) := funext hBQ
  obtain rfl : ak = fun i => (AK i : EReal) := funext hAK
  obtain rfl : bk = fun i => (BK i : EReal) := funext hBK
  obtain rfl : av = fun i => (AV i : EReal) := funext hAV
  obtain rfl : bv = fun i => (BV i : EReal) := funext hBV
  unfold kerAt refAt wEff
  rw [lora_coe]
  simp only [aFull_coe, bFull_coe, ← EReal.coe_mul, ← coe_sum, ← EReal.coe_add]
  refine congrArg _ ?_
  rw [fold_real (fun k => X (ix3 bb n k)) (fun k => W (ix2 j k)) (fun k l => aFullR AQ AK AV k l) (fun l => bFullR BQ BK BV l j),
    blocks_real]
  ring

end Cert.Lora

end
-- ==== Proof.lean ====
/-
  A dense projection with three low-rank updates, computed two ways, is one function of real-valued inputs.

  The reference forms  x * w^T + bias  and adds, on each third of the 2304 output columns, the low-rank path
  (x * a^T) * b^T  of that third. The kernel first folds the paths into the weight,
  w_eff = w^T + A_full * B_full  with  A_full = [a_q^T | a_k^T | a_v^T]  and  B_full  block diagonal in
  b_q^T, b_k^T, b_v^T, pads x with zero rows to a multiple of 512, and runs one product  x * w_eff + bias  in
  25 row blocks of 512, whose results tile the padded output; the padding rows are then cut off. On the extended
  reals a change of float format is the identity, so the two results agree as soon as the product distributes
  over the folded weight, which it does when every entry is a real number: that is what the precondition gives.

  The modules: Spec (the two results index by index), Algebra (they agree on real-valued inputs), Finite (the
  precondition makes every input real-valued), RefValue (the reference's run is the first), FrameDefs* and
  FrameRun* (the kernel program runs, faults nowhere, leaves its arguments; its output array is what the library
  computes from what each grid point writes back), KernelPayload / KernelValue / KernelTail / HostPrefix /
  KernelResult (that array, then the result, is the second). No operation was rewritten by the idealization,
  so the word-level kernel needs only its frame.
-/
import proofs.«135189_j63608465654579_2_alg».proof.Defs
import proofs.«135189_j63608465654579_2_alg».proof.Proof.Gen.Kernel
import proofs.«135189_j63608465654579_2_alg».proof.Proof.Gen.KernelIdeal
import proofs.«135189_j63608465654579_2_alg».proof.Proof.Gen.ReferenceIdeal
import proofs.«135189_j63608465654579_2_alg».proof.Proof.Gen.Pre_finite_inputs
import proofs.«135189_j63608465654579_2_alg».proof.Proof.Gen.ReferenceIdeal.Run
import proofs.«135189_j63608465654579_2_alg».proof.Proof.Gen.ReferenceIdeal.Read
import proofs.«135189_j63608465654579_2_alg».proof.Proof.FrameRunBits
import proofs.«135189_j63608465654579_2_alg».proof.Proof.FrameRunIdeal
import proofs.«135189_j63608465654579_2_alg».proof.Proof.KernelResult
import proofs.«135189_j63608465654579_2_alg».proof.Proof.RefValue
import proofs.«135189_j63608465654579_2_alg».proof.Proof.Finite
import proofs.«135189_j63608465654579_2_alg».proof.Proof.Algebra

set_option maxRecDepth 16384

noncomputable section

namespace Cert.Proof

open Idealize.ShloMosaic Idealize.ShloMosaic.TcCoe Idealize.ShloMosaic.ValueIdx Idealize.SL.Sem

/-- The word-level kernel program runs and leaves its nine arguments. -/
theorem frame_k : Cert.frame_Kernel := fun m ρ _ => Cert.Kernel.Hand.frame m ρ

/-- So does the idealized kernel program. -/
theorem frame_ki : Cert.frame_KernelIdeal := fun m ρ _ => Cert.KernelIdeal.Hand.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end, from memories agreeing on the arguments, with the reference's function of the arguments:
    the reference by its run read at an index, the kernel by its blocks, its folded weight and the law that
    unfolds it, which needs every entry real. -/
theorem algebraic : Cert.algebraic_KernelIdeal_ReferenceIdeal := by
  intro m ρ m' ρ' hpre hagree
  refine ⟨fun c => fun i => Cert.Lora.refAt (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (i 0) (i 1) (i 2), ?_, ?_⟩
  · refine (θ_run Cert.KernelIdeal.defs _ _).mono (fun r h c => ⟨?_, Cert.KernelIdeal.Hand.kept m r h c⟩)
      (Cert.KernelIdeal.Hand.run_main m ρ)
    refine ((h c).2 Cert.KernelIdeal.main_v21 (Pipeline.mem_restRefs_of Cert.KernelIdeal.main_v21 (by decide) (by decide))).trans ?_
    obtain ⟨h0, h1, h2, h3, h4, h5, h6, h7, h8⟩ := Cert.Finite.of_pre _ _ _ _ _ _ _ _ _ (hpre c)
    funext i
    obtain ⟨bb, n, j, rfl⟩ : ∃ (bb : Fin 64) (n : Fin 197) (j : Fin 2304), i = ix3 bb n j := ⟨i 0, i 1, i 2, eq_ix3 i⟩
    exact (Cert.KernelIdeal.KernelResult.result_at m c bb n j).trans
      (Cert.Lora.kerAt_eq_refAt _ _ _ _ _ _ _ _ _ h0 h1 h2 h3 h4 h5 h6 h7 h8 bb n j)
  · refine (θ_run Cert.ReferenceIdeal.defs _ _).mono (fun r h c => ⟨(h c).1.trans ?_, (h c).2⟩)
      (Cert.ReferenceIdeal.Value.run (F := Ideal) m' ρ')
    refine (Cert.ReferenceIdeal.Read.val_main_v11_eq _ _ _ _ _ _ _ _ _).trans ?_
    obtain ⟨a0, a1, a2, a3, a4, a5, a6, a7, a8⟩ := hagree c
    rw [a0, a1, a2, a3, a4, a5, a6, a7, a8]
    funext i
    obtain ⟨bb, n, j, rfl⟩ : ∃ (bb : Fin 64) (n : Fin 197) (j : Fin 2304), i = ix3 bb n j := ⟨i 0, i 1, i 2, eq_ix3 i⟩
    exact Cert.ReferenceIdeal.RefValue.ref_apply _ _ _ _ _ _ _ _ _ bb n j

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
